-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x64 : Shape := ⟨4, ![16, 512, 32, 64]⟩
abbrev S512x256 : Shape := ⟨2, ![512, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S16x512x32x64 : S_.BroadcastsInDim S16x512x32x64 (![] : Fin 0 → Fin S16x512x32x64.rank)
  reducesTo_S16x512x32x64_S_d0_1_2_3 : S16x512x32x64.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S256x512 .f32) (main_arg8 : FVec F S512 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x256 .f32) (main_arg6 : FVec F S256 .f32) (main_arg7 : FVec F S256x512 .f32) (main_arg8 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S16x512x32x64 .f32) (main_arg1 : FVec F S512x256 .f32) (main_arg2 : FVec F S256 .f32) (main_arg3 : FVec F S256x512 .f32) (main_arg4 : FVec F S512 .f32) (main_arg5 : FVec F S512x256 .f32) (main_arg6 : FVec F S256 .f32) (main_arg7 : FVec F S256x512 .f32) (main_arg8 : FVec F S512 .f32) : IVec S_ 1 :=
  let main_v0 : FVec F S16x512x32x64 .f32 := Host.absf main_arg0
  let main_cst : FVec F S_ .f32 := constant S_ .f32 0x7F800000#32
  let main_v1 : FVec F S16x512x32x64 .f32 := broadcastInDim S16x512x32x64 ![] bcast_S_S16x512x32x64 main_cst
  let main_v2 : IVec S16x512x32x64 1 := cmpf .olt main_v0 main_v1
  let main_c : IVec S_ 1 := constantI S_ 1 1#1
  let main_v3 : IVec S_ 1 := (fun x v => Host.reduce IntOp.andi x v reducesTo_S16x512x32x64_S_d0_1_2_3 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_v13 main_v16
-- ==== Kernel.lean ====
abbrev S16x512x32x64 : Shape := ⟨4, ![16, 512, 32, 64]⟩
abbrev S512x256 : Shape := ⟨2, ![512, 256]⟩
abbrev S256 : Shape := ⟨1, ![256]⟩
abbrev S256x512 : Shape := ⟨2, ![256, 512]⟩
abbrev S512 : Shape := ⟨1, ![512]⟩
abbrev S16x512x2048 : Shape := ⟨3, ![16, 512, 2048]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩
abbrev S2x512x2048 : Shape := ⟨3, ![2, 512, 2048]⟩
abbrev S1x512x2048 : Shape := ⟨3, ![1, 512, 2048]⟩
abbrev S512x2048 : Shape := ⟨2, ![512, 2048]⟩
abbrev S512x1 : Shape := ⟨2, ![512, 1]⟩
abbrev S512x128 : Shape := ⟨2, ![512, 128]⟩
abbrev S256x128 : Shape := ⟨2, ![256, 128]⟩
abbrev S256x1 : Shape := ⟨2, ![256, 1]⟩
abbrev S256x2048 : Shape := ⟨2, ![256, 2048]⟩

abbrev nBuf : Space → Nat
  | .hbm => 21
  | .vmem => 6
  | .smem => 0
  | _ => 0

abbrev bufTy : (tb : Table) → Fin (tcTables nBuf tb) → BufTy
  | .hbm, ⟨0, _⟩ => ⟨S16x512x32x64, .f32⟩
  | .hbm, ⟨1, _⟩ => ⟨S512x256, .f32⟩
  | .hbm, ⟨2, _⟩ => ⟨S256, .f32⟩
  | .hbm, ⟨3, _⟩ => ⟨S256x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S16x512x2048, .f32⟩
  | .hbm, ⟨10, _⟩ => ⟨S512x256, .f32⟩
  | .hbm, ⟨11, _⟩ => ⟨S512x256, .f32⟩
  | .hbm, ⟨12, _⟩ => ⟨S512x512, .f32⟩
  | .hbm, ⟨13, _⟩ => ⟨S256x512, .f32⟩
  | .hbm, ⟨14, _⟩ => ⟨S256x512, .f32⟩
  | .hbm, ⟨15, _⟩ => ⟨S1024x512, .f32⟩
  | .hbm, ⟨16, _⟩ => ⟨S512, .f32⟩
  | .hbm, ⟨17, _⟩ => ⟨S1024, .f32⟩
  | .hbm, ⟨18, _⟩ => ⟨S1024x1, .f32⟩
  | .hbm, ⟨19, _⟩ => ⟨S16x512x2048, .f32⟩
  | .hbm, ⟨20, _⟩ => ⟨S16x512x32x64, .f32⟩
  | .local _ .vmem, ⟨0, _⟩ => ⟨S2x512x2048, .f32⟩
  | .local _ .vmem, ⟨1, _⟩ => ⟨S2x512x2048, .f32⟩
  | .local _ .vmem, ⟨2, _⟩ => ⟨S1024x512, .f32⟩
  | .local _ .vmem, ⟨3, _⟩ => ⟨S1024x1, .f32⟩
  | .local _ .vmem, ⟨4, _⟩ => ⟨S2x512x2048, .f32⟩
  | .local _ .vmem, ⟨5, _⟩ => ⟨S2x512x2048, .f32⟩
  | _, _ => ⟨S16x512x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x512x32x64_S16x512x2048 : S16x512x32x64.ShapeCasts S16x512x2048
  transposes_S256x512_S512x256_1_0 : S256x512.Transposes [1, 0] S512x256
  concatenates_S512x256_S512x256_S512x512_d1 : Shape.Concatenates [S512x256, S512x256] S512x512 1
  transposes_S512x256_S256x512_1_0 : S512x256.Transposes [1, 0] S256x512
  concatenates_S256x512_S256x512_S512x512_S1024x512_d0 : Shape.Concatenates [S256x512, S256x512, S512x512] S1024x512 0
  concatenates_S256_S256_S512_S1024_d0 : Shape.Concatenates [S256, S256, S512] S1024 0
  shapeCasts_S1024_S1024x1 : S1024.ShapeCasts S1024x1
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  shapeCasts_S512x1_S512x1 : S512x1.ShapeCasts S512x1
  broadcasts_S512x1_S512x128 : S512x1.Broadcasts S512x128
  inb_S1024x512_S256x512_256_0 : ∀ a, (![256, 0] : Fin 2 → Nat) a + S256x512.size a ≤ S1024x512.size a
  h_S256x512 : 0 < S256x512.numel
  shapeCasts_S256x512_S256x512 : S256x512.ShapeCasts S256x512
  inb_S1024x1_S256x1_256_0 : ∀ a, (![256, 0] : Fin 2 → Nat) a + S256x1.size a ≤ S1024x1.size a
  h_S256x1 : 0 < S256x1.numel
  shapeCasts_S256x1_S256x1 : S256x1.ShapeCasts S256x1
  broadcasts_S256x1_S256x128 : S256x1.Broadcasts S256x128
  inb_S1024x512_S512x256_512_256 : ∀ a, (![512, 256] : Fin 2 → Nat) a + S512x256.size a ≤ S1024x512.size a
  h_S512x256 : 0 < S512x256.numel
  shapeCasts_S512x256_S512x256 : S512x256.ShapeCasts S512x256
  slices_S512x128_o0_0_S512x1 : S512x128.Slices ![0, 0] S512x1
  inb_S1024x512_S256x512_0_0 : ∀ a, (![0, 0] : Fin 2 → Nat) a + S256x512.size a ≤ S1024x512.size a
  inb_S1024x1_S256x1_0_0 : ∀ a, (![0, 0] : Fin 2 → Nat) a + S256x1.size a ≤ S1024x1.size a
  broadcasts_S256x1_S256x2048 : S256x1.Broadcasts S256x2048
  inb_S1024x512_S512x256_512_0 : ∀ a, (![512, 0] : Fin 2 → Nat) a + S512x256.size a ≤ S1024x512.size a
  inb_S1024x1_S512x1_512_0 : ∀ a, (![512, 0] : Fin 2 → Nat) a + S512x1.size a ≤ S1024x1.size a
  h_S512x1 : 0 < S512x1.numel
  broadcasts_S512x1_S512x2048 : S512x1.Broadcasts S512x2048
  shapeCasts_S512x2048_S1x512x2048 : S512x2048.ShapeCasts S1x512x2048
  inb_S2x512x2048_S1x512x2048_1_0_0 : ∀ a, (![1, 0, 0] : Fin 3 → Nat) a + S1x512x2048.size a ≤ S2x512x2048.size a
  shapeCasts_S16x512x2048_S16x512x32x64 : S16x512x2048.ShapeCasts S16x512x32x64
  dot_S256x512_S512x128_S256x128_1_0_0_1_n_n_wf : DotDims.WF S256x512 S512x128 S256x128 [1] [0] [0] [1] [] []
  dot_S512x256_S256x128_S512x128_1_0_0_1_n_n_wf : DotDims.WF S512x256 S256x128 S512x128 [1] [0] [0] [1] [] []
  dot_S256x512_S512x2048_S256x2048_1_0_0_1_n_n_wf : DotDims.WF S256x512 S512x2048 S256x2048 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x2048.size a ≤ S16x512x2048.size a
  hwx0_0 : ∀ i : grid0.Coords, EltTy.bits .f32 = 32 ∨ (Rect.block (s := S16x512x2048) S2x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x2048.size a ≤ S16x512x2048.size a
  hwx0_3 : ∀ i : grid0.Coords, EltTy.bits .f32 = 32 ∨ (Rect.block (s := S16x512x2048) S2x512x2048.size (cc0_transform_3 i) (hinb0_3 i)).WholeWords (EltTy.packing .f32)

variable [Facts₀]

def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S2x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x32x64 : Shape := ⟨4, ![16, 512, 32, 64]⟩
abbrev S512x256 : Shape := ⟨2, ![512, 256]⟩
abbrev S256 : Shape := ⟨1, ![256]⟩
abbrev S256x512 : Shape := ⟨2, ![256, 512]⟩
abbrev S512 : Shape := ⟨1, ![512]⟩
abbrev S16x512x2048 : Shape := ⟨3, ![16, 512, 2048]⟩
abbrev S256x1 : Shape := ⟨2, ![256, 1]⟩
abbrev S512x1 : Shape := ⟨2, ![512, 1]⟩
abbrev S_ : Shape := ⟨0, ![]⟩
abbrev S16x512 : Shape := ⟨2, ![16, 512]⟩
abbrev S16x256 : Shape := ⟨2, ![16, 256]⟩
abbrev S1x256 : Shape := ⟨2, ![1, 256]⟩
abbrev S1x512 : Shape := ⟨2, ![1, 512]⟩
abbrev S16x512x1 : Shape := ⟨3, ![16, 512, 1]⟩
abbrev S1x512x1 : Shape := ⟨3, ![1, 512, 1]⟩
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 37
  | .vmem => 10
  | .smem => 0
  | _ => 0

abbrev bufTy : (tb : Table) → Fin (tcTables nBuf tb) → BufTy
  | .hbm, ⟨0, _⟩ => ⟨S16x512x32x64, .f32⟩
  | .hbm, ⟨1, _⟩ => ⟨S512x256, .f32⟩
  | .hbm, ⟨2, _⟩ => ⟨S256, .f32⟩
  | .hbm, ⟨3, _⟩ => ⟨S256x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S16x512x2048, .f32⟩
  | .hbm, ⟨10, _⟩ => ⟨S256x512, .f32⟩
  | .hbm, ⟨11, _⟩ => ⟨S256x1, .f32⟩
  | .hbm, ⟨12, _⟩ => ⟨S512x256, .f32⟩
  | .hbm, ⟨13, _⟩ => ⟨S512x1, .f32⟩
  | .hbm, ⟨14, _⟩ => ⟨S256x512, .f32⟩
  | .hbm, ⟨15, _⟩ => ⟨S256x1, .f32⟩
  | .hbm, ⟨16, _⟩ => ⟨S512x256, .f32⟩
  | .hbm, ⟨17, _⟩ => ⟨S512x1, .f32⟩
  | .hbm, ⟨18, _⟩ => ⟨S_, .f32⟩
  | .hbm, ⟨19, _⟩ => ⟨S16x512, .f32⟩
  | .hbm, ⟨20, _⟩ => ⟨S_, .f32⟩
  | .hbm, ⟨21, _⟩ => ⟨S16x512, .f32⟩
  | .hbm, ⟨22, _⟩ => ⟨S16x512, .f32⟩
  | .hbm, ⟨23, _⟩ => ⟨S16x256, .f32⟩
  | .hbm, ⟨24, _⟩ => ⟨S1x256, .f32⟩
  | .hbm, ⟨25, _⟩ => ⟨S16x256, .f32⟩
  | .hbm, ⟨26, _⟩ => ⟨S16x256, .f32⟩
  | .hbm, ⟨27, _⟩ => ⟨S_, .f32⟩
  | .hbm, ⟨28, _⟩ => ⟨S16x256, .f32⟩
  | .hbm, ⟨29, _⟩ => ⟨S16x256, .f32⟩
  | .hbm, ⟨30, _⟩ => ⟨S16x512, .f32⟩
  | .hbm, ⟨31, _⟩ => ⟨S1x512, .f32⟩
  | .hbm, ⟨32, _⟩ => ⟨S16x512, .f32⟩
  | .hbm, ⟨33, _⟩ => ⟨S16x512, .f32⟩
  | .hbm, ⟨34, _⟩ => ⟨S16x512x1, .f32⟩
  | .hbm, ⟨35, _⟩ => ⟨S16x512x2048, .f32⟩
  | .hbm, ⟨36, _⟩ => ⟨S16x512x32x64, .f32⟩
  | .local _ .vmem, ⟨0, _⟩ => ⟨S1x512x1, .f32⟩
  | .local _ .vmem, ⟨1, _⟩ => ⟨S1x512x1, .f32⟩
  | .local _ .vmem, ⟨2, _⟩ => ⟨S1x512x1024, .f32⟩
  | .local _ .vmem, ⟨3, _⟩ => ⟨S1x512x1024, .f32⟩
  | .local _ .vmem, ⟨4, _⟩ => ⟨S256x512, .f32⟩
  | .local _ .vmem, ⟨5, _⟩ => ⟨S256x1, .f32⟩
  | .local _ .vmem, ⟨6, _⟩ => ⟨S512x256, .f32⟩
  | .local _ .vmem, ⟨7, _⟩ => ⟨S512x1, .f32⟩
  | .local _ .vmem, ⟨8, _⟩ => ⟨S1x512x1024, .f32⟩
  | .local _ .vmem, ⟨9, _⟩ => ⟨S1x512x1024, .f32⟩
  | _, _ => ⟨S16x512x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16x512x32x64_S16x512x2048 : S16x512x32x64.ShapeCasts S16x512x2048
  transposes_S512x256_S256x512_1_0 : S512x256.Transposes [1, 0] S256x512
  shapeCasts_S256_S256x1 : S256.ShapeCasts S256x1
  transposes_S256x512_S512x256_1_0 : S256x512.Transposes [1, 0] S512x256
  shapeCasts_S512_S512x1 : S512.ShapeCasts S512x1
  reducesTo_S16x512x2048_S16x512_d2 : S16x512x2048.ReducesTo [2] S16x512
  h_S_ : 0 < S_.numel
  bcast_S_S16x512 : S_.BroadcastsInDim S16x512 (![] : Fin 0 → Fin S16x512.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S16x512_S16x512x1_0_1 : S16x512.BroadcastsInDim S16x512x1 (![0, 1] : Fin 2 → Fin S16x512x1.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1024_S1x512x1024 : S512x1024.ShapeCasts S1x512x1024
  shapeCasts_S16x512x2048_S16x512x32x64 : S16x512x2048.ShapeCasts S16x512x32x64
  dot_S16x512_S512x256_S16x256_1_0_0_1_n_n_wf : DotDims.WF S16x512 S512x256 S16x256 [1] [0] [0] [1] [] []
  dot_S16x256_S256x512_S16x512_1_0_0_1_n_n_wf : DotDims.WF S16x256 S256x512 S16x512 [1] [0] [0] [1] [] []
  dot_S256x512_S512x1024_S256x1024_1_0_0_1_n_n_wf : DotDims.WF S256x512 S512x1024 S256x1024 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S16x512x1.size a
  hwx0_0 : ∀ i : grid0.Coords, EltTy.bits .f32 = 32 ∨ (Rect.block (s := S16x512x1) S1x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x512x2048.size a
  hwx0_1 : ∀ i : grid0.Coords, EltTy.bits .f32 = 32 ∨ (Rect.block (s := S16x512x2048) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S16x512x2048.size a
  hwx0_6 : ∀ i : grid0.Coords, EltTy.bits .f32 = 32 ∨ (Rect.block (s := S16x512x2048) S1x512x1024.size (cc0_transform_6 i) (hinb0_6 i)).WholeWords (EltTy.packing .f32)

variable [Facts₀]

def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v22) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.KDefsBits.lean ====
/-
  The shared vocabulary of the packed kernel's frame and value: the arrays as the region finds them, the
  rectangles through which the body reads its three input blocks, and what the body stores.

  The region is entered after the host operations that reshape the input to [16, 512, 2048] and pack the eight
  parameter arrays into one matrix [1024, 512] and one column [1024, 1]. At a grid point the body holds a block
  x0 [2, 512, 2048] of the input (two batch entries), the whole packed matrix x1 and the whole packed column x2. It
  reads batch entry 0 of the block through the rectangle `rA` and entry 1 through `rB`; of the matrix the rows
  256–511 (`mG1`), the rows 512–1023 in the columns 256–511 (`mG2`), the rows 0–255 (`mL1`) and the rows 512–1023
  in the columns 0–255 (`mL2`); of the column the rows 256–511 (`cG`), 0–255 (`cL`) and 512–1023 (`cO`). It stores
  the gated entry 0 into `rA` of the output block and the gated entry 1 into `rB`.
-/
import proofs.«129053_g2000003555652995_pallasbulk_24_34_alg».proof.Proof.Gen.Kernel.Launch
import proofs.«129053_g2000003555652995_pallasbulk_24_34_alg».proof.Proof.Gen.Kernel.Skeleton
import proofs.«129053_g2000003555652995_pallasbulk_24_34_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core c's buffers when the region is entered: the launch memory after the ten host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Batch entry 0 of a [2, 512, 2048] block, and batch entry 1. -/
abbrev rA : Rect S2x512x2048 := Rect.unit (s := S2x512x2048) ![0, 0, 0] S1x512x2048.size inb_S2x512x2048_S1x512x2048_0_0_0
abbrev rB : Rect S2x512x2048 := Rect.unit (s := S2x512x2048) ![1, 0, 0] S1x512x2048.size inb_S2x512x2048_S1x512x2048_1_0_0
/-- Of the packed matrix: the global first layer, the global second layer, the local first layer, the local
    second layer. -/
abbrev mG1 : Rect S1024x512 := Rect.unit (s := S1024x512) ![256, 0] S256x512.size inb_S1024x512_S256x512_256_0
abbrev mG2 : Rect S1024x512 := Rect.unit (s := S1024x512) ![512, 256] S512x256.size inb_S1024x512_S512x256_512_256
abbrev mL1 : Rect S1024x512 := Rect.unit (s := S1024x512) ![0, 0] S256x512.size inb_S1024x512_S256x512_0_0
abbrev mL2 : Rect S1024x512 := Rect.unit (s := S1024x512) ![512, 0] S512x256.size inb_S1024x512_S512x256_512_0
/-- Of the packed column: the global first bias, the local first bias, the summed output biases. -/
abbrev cG : Rect S1024x1 := Rect.unit (s := S1024x1) ![256, 0] S256x1.size inb_S1024x1_S256x1_256_0
abbrev cL : Rect S1024x1 := Rect.unit (s := S1024x1) ![0, 0] S256x1.size inb_S1024x1_S256x1_0_0
abbrev cO : Rect S1024x1 := Rect.unit (s := S1024x1) ![512, 0] S512x1.size inb_S1024x1_S512x1_512_0

/-- What the body stores for batch entry 0: the gate applied to entry 0 of the input block. -/
def payA (x0 : Vec F S2x512x2048 .f32) (x1 : Vec F S1024x512 .f32) (x2 : Vec F S1024x1 .f32) : Vec F S1x512x2048 .f32 :=
  k0_pay5 (k0_pay2 (View.ld x0 rA)) (k0_pay3 (View.ld x0 rA) (View.ld x1 mG1) (View.ld x2 cG) (View.ld x1 mG2))
    (k0_pay4 (View.ld x0 rA) (View.ld x1 mL1) (View.ld x2 cL) (View.ld x1 mL2)) (View.ld x2 cO)

/-- What the body stores for batch entry 1. -/
def payB (x0 : Vec F S2x512x2048 .f32) (x1 : Vec F S1024x512 .f32) (x2 : Vec F S1024x1 .f32) : Vec F S1x512x2048 .f32 :=
  k0_pay1 (k0_pay6 (View.ld x0 rB)) (k0_pay7 (View.ld x0 rB) (View.ld x1 mG1) (View.ld x2 cG) (View.ld x1 mG2))
    (View.ld x1 mL1) (View.ld x2 cL) (View.ld x1 mL2) (View.ld x2 cO)

/-- The output block after the body: its two stores, the later one first. -/
def out0_3 (x0 : Vec F S2x512x2048 .f32) (x1 : Vec F S1024x512 .f32) (x2 : Vec F S1024x1 .f32) : Vec F S2x512x2048 .f32 :=
  View.canon [⟨rB, payB x0 x1 x2⟩, ⟨rA, payA x0 x1 x2⟩]

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KFrameBits.lean ====
/-
  The frame of the packed kernel: every weakly fair execution of @main terminates without a fault and leaves the
  nine argument arrays as they were; and, beyond that, the run's final state has the output array of the one
  region at what the grid points wrote back.

  @main is ten host operations (the reshape of the input and the packing of the parameters), the region, and one
  host operation (the reshape of the result). None of the host operations writes an argument array, so the region
  finds each argument as launched and each ends as launched. Inside the region, at every grid point the body holds
  the point's block of the input and the whole packed matrix and column in its three input buffers, whether the
  pipeline fetched them at that point or kept them from an earlier one; it loads from them through nine rectangles
  inside their extents, and stores twice into the output buffer, through two rectangles — batch entry 0 and batch
  entry 1 of the block — that together tile the buffer. So after the body the output buffer holds the two stored
  values laid side by side (`out0_3`), whatever it held before, and the three input buffers are unchanged. That
  is the body's obligation to the pipeline; the pipeline's launch theorem turns it into the run of @main.
-/
import proofs.«129053_g2000003555652995_pallasbulk_24_34_alg».proof.Proof.KDefsBits
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the pipeline's arrays and the other unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the pipeline's four arrays: it writes the reshaped result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The input windows' blocks -/

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run whose final state has every unscoped buffer outside the pipeline's arrays at what the reshape after
    the region leaves there, the nine argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c))⟩) h

/-! ## The body -/

/-- The two stores tile the output buffer, so every index of it lies in one of them. -/
theorem cover0_3 (p0 : Vec F S1x512x2048 .f32) (p1 : Vec F S1x512x2048 .f32) (y : S2x512x2048.Idx) :
    ∃ pc ∈ ([⟨rB, p0⟩, ⟨rA, p1⟩] : List (View.Piece (Elt F) S2x512x2048 .f32)), y ∈ pc.1.set :=
  View.cover_of_tiled [⟨rB, p0⟩, ⟨rA, p1⟩] S1x512x2048.size (by rfl) y

set_option maxHeartbeats 4000000 in
/-- The body on whole staging buffers, the three inputs at contents x0, x1, x2 and the output at anything, runs to
    the continuation with the inputs as they were and the output at `out0_3 x0 x1 x2`: every load is inside its
    buffer, and the two stores overwrite the whole output buffer. -/
theorem sound_kernel (c : Dev nD) (E : Set ℕ) (i : grid0.Coords) (arg1 : Memref sig .tc .vmem S2x512x2048 .f32) (harg1 : arg1.IsWhole) (arg2 : Memref sig .tc .vmem S1024x512 .f32) (harg2 : arg2.IsWhole) (arg3 : Memref sig .tc .vmem S1024x1 .f32) (harg3 : arg3.IsWhole) (arg4 : Memref sig .tc .vmem S2x512x2048 .f32) (harg4 : arg4.IsWhole)
    (x0 : Vec F S2x512x2048 .f32) (x1 : Vec F S1024x512 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__ms_cam_kernel i arg1 harg1 arg2 harg2 arg3 harg3 arg4 harg4) K := by
  simp only [cc0__ms_cam_kernel_eq_skeleton]; unfold cc0__ms_cam_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  unfold out0_3 payA payB
  exact View.read_writes_eq_canon _ _ _ (cover0_3 _ _)

/-! ## The pipeline's proof data -/

/-- On core c: the arrays as the region finds them; after the body at point t each input buffer at its block and
    the output buffer at `out0_3` of the three input blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation to the pipeline, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so `sound_kernel` applies; the rest of the core
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has each array of the
    pipeline at what the proof data computes (the output array at what the grid points wrote back) and every other
    unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without a fault and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KDefsIdeal.lean ====
/-
  The shared vocabulary of the packed kernel's frame and value: the arrays as the region finds them, the
  rectangles through which the body reads its three input blocks, and what the body stores.

  The region is entered after the host operations that reshape the input to [16, 512, 2048] and pack the eight
  parameter arrays into one matrix [1024, 512] and one column [1024, 1]. At a grid point the body holds a block
  x0 [2, 512, 2048] of the input (two batch entries), the whole packed matrix x1 and the whole packed column x2. It
  reads batch entry 0 of the block through the rectangle `rA` and entry 1 through `rB`; of the matrix the rows
  256–511 (`mG1`), the rows 512–1023 in the columns 256–511 (`mG2`), the rows 0–255 (`mL1`) and the rows 512–1023
  in the columns 0–255 (`mL2`); of the column the rows 256–511 (`cG`), 0–255 (`cL`) and 512–1023 (`cO`). It stores
  the gated entry 0 into `rA` of the output block and the gated entry 1 into `rB`.
-/
import proofs.«129053_g2000003555652995_pallasbulk_24_34_alg».proof.Proof.Gen.KernelIdeal.Launch
import proofs.«129053_g2000003555652995_pallasbulk_24_34_alg».proof.Proof.Gen.KernelIdeal.Skeleton
import proofs.«129053_g2000003555652995_pallasbulk_24_34_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core c's buffers when the region is entered: the launch memory after the ten host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Batch entry 0 of a [2, 512, 2048] block, and batch entry 1. -/
abbrev rA : Rect S2x512x2048 := Rect.unit (s := S2x512x2048) ![0, 0, 0] S1x512x2048.size inb_S2x512x2048_S1x512x2048_0_0_0
abbrev rB : Rect S2x512x2048 := Rect.unit (s := S2x512x2048) ![1, 0, 0] S1x512x2048.size inb_S2x512x2048_S1x512x2048_1_0_0
/-- Of the packed matrix: the global first layer, the global second layer, the local first layer, the local
    second layer. -/
abbrev mG1 : Rect S1024x512 := Rect.unit (s := S1024x512) ![256, 0] S256x512.size inb_S1024x512_S256x512_256_0
abbrev mG2 : Rect S1024x512 := Rect.unit (s := S1024x512) ![512, 256] S512x256.size inb_S1024x512_S512x256_512_256
abbrev mL1 : Rect S1024x512 := Rect.unit (s := S1024x512) ![0, 0] S256x512.size inb_S1024x512_S256x512_0_0
abbrev mL2 : Rect S1024x512 := Rect.unit (s := S1024x512) ![512, 0] S512x256.size inb_S1024x512_S512x256_512_0
/-- Of the packed column: the global first bias, the local first bias, the summed output biases. -/
abbrev cG : Rect S1024x1 := Rect.unit (s := S1024x1) ![256, 0] S256x1.size inb_S1024x1_S256x1_256_0
abbrev cL : Rect S1024x1 := Rect.unit (s := S1024x1) ![0, 0] S256x1.size inb_S1024x1_S256x1_0_0
abbrev cO : Rect S1024x1 := Rect.unit (s := S1024x1) ![512, 0] S512x1.size inb_S1024x1_S512x1_512_0

/-- What the body stores for batch entry 0: the gate applied to entry 0 of the input block. -/
def payA (x0 : Vec F S2x512x2048 .f32) (x1 : Vec F S1024x512 .f32) (x2 : Vec F S1024x1 .f32) : Vec F S1x512x2048 .f32 :=
  k0_pay5 (k0_pay2 (View.ld x0 rA)) (k0_pay3 (View.ld x0 rA) (View.ld x1 mG1) (View.ld x2 cG) (View.ld x1 mG2))
    (k0_pay4 (View.ld x0 rA) (View.ld x1 mL1) (View.ld x2 cL) (View.ld x1 mL2)) (View.ld x2 cO)

/-- What the body stores for batch entry 1. -/
def payB (x0 : Vec F S2x512x2048 .f32) (x1 : Vec F S1024x512 .f32) (x2 : Vec F S1024x1 .f32) : Vec F S1x512x2048 .f32 :=
  k0_pay1 (k0_pay6 (View.ld x0 rB)) (k0_pay7 (View.ld x0 rB) (View.ld x1 mG1) (View.ld x2 cG) (View.ld x1 mG2))
    (View.ld x1 mL1) (View.ld x2 cL) (View.ld x1 mL2) (View.ld x2 cO)

/-- The output block after the body: its two stores, the later one first. -/
def out0_3 (x0 : Vec F S2x512x2048 .f32) (x1 : Vec F S1024x512 .f32) (x2 : Vec F S1024x1 .f32) : Vec F S2x512x2048 .f32 :=
  View.canon [⟨rB, payB x0 x1 x2⟩, ⟨rA, payA x0 x1 x2⟩]

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KFrameIdeal.lean ====
/-
  The frame of the packed kernel: every weakly fair execution of @main terminates without a fault and leaves the
  nine argument arrays as they were; and, beyond that, the run's final state has the output array of the one
  region at what the grid points wrote back.

  @main is ten host operations (the reshape of the input and the packing of the parameters), the region, and one
  host operation (the reshape of the result). None of the host operations writes an argument array, so the region
  finds each argument as launched and each ends as launched. Inside the region, at every grid point the body holds
  the point's block of the input and the whole packed matrix and column in its three input buffers, whether the
  pipeline fetched them at that point or kept them from an earlier one; it loads from them through nine rectangles
  inside their extents, and stores twice into the output buffer, through two rectangles — batch entry 0 and batch
  entry 1 of the block — that together tile the buffer. So after the body the output buffer holds the two stored
  values laid side by side (`out0_3`), whatever it held before, and the three input buffers are unchanged. That
  is the body's obligation to the pipeline; the pipeline's launch theorem turns it into the run of @main.
-/
import proofs.«129053_g2000003555652995_pallasbulk_24_34_alg».proof.Proof.KDefsIdeal
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the pipeline's arrays and the other unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the pipeline's four arrays: it writes the reshaped result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The input windows' blocks -/

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run whose final state has every unscoped buffer outside the pipeline's arrays at what the reshape after
    the region leaves there, the nine argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c))⟩) h

/-! ## The body -/

/-- The two stores tile the output buffer, so every index of it lies in one of them. -/
theorem cover0_3 (p0 : Vec F S1x512x2048 .f32) (p1 : Vec F S1x512x2048 .f32) (y : S2x512x2048.Idx) :
    ∃ pc ∈ ([⟨rB, p0⟩, ⟨rA, p1⟩] : List (View.Piece (Elt F) S2x512x2048 .f32)), y ∈ pc.1.set :=
  View.cover_of_tiled [⟨rB, p0⟩, ⟨rA, p1⟩] S1x512x2048.size (by rfl) y

set_option maxHeartbeats 4000000 in
/-- The body on whole staging buffers, the three inputs at contents x0, x1, x2 and the output at anything, runs to
    the continuation with the inputs as they were and the output at `out0_3 x0 x1 x2`: every load is inside its
    buffer, and the two stores overwrite the whole output buffer. -/
theorem sound_kernel (c : Dev nD) (E : Set ℕ) (i : grid0.Coords) (arg1 : Memref sig .tc .vmem S2x512x2048 .f32) (harg1 : arg1.IsWhole) (arg2 : Memref sig .tc .vmem S1024x512 .f32) (harg2 : arg2.IsWhole) (arg3 : Memref sig .tc .vmem S1024x1 .f32) (harg3 : arg3.IsWhole) (arg4 : Memref sig .tc .vmem S2x512x2048 .f32) (harg4 : arg4.IsWhole)
    (x0 : Vec F S2x512x2048 .f32) (x1 : Vec F S1024x512 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__ms_cam_kernel i arg1 harg1 arg2 harg2 arg3 harg3 arg4 harg4) K := by
  simp only [cc0__ms_cam_kernel_eq_skeleton]; unfold cc0__ms_cam_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  unfold out0_3 payA payB
  exact View.read_writes_eq_canon _ _ _ (cover0_3 _ _)

/-! ## The pipeline's proof data -/

/-- On core c: the arrays as the region finds them; after the body at point t each input buffer at its block and
    the output buffer at `out0_3` of the three input blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation to the pipeline, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so `sound_kernel` applies; the rest of the core
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has each array of the
    pipeline at what the proof data computes (the output array at what the grid points wrote back) and every other
    unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without a fault and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.KBlocksIdeal.lean ====
/-
  The three input blocks of the packed kernel at a grid point, read at an index.

  The grid has eight points. At point t the input window holds the batch entries 2t and 2t + 1 of the input
  [16, 512, 2048]: entry b of the block, at channel c and position s, is the input at (2t + b, c, s). The packed
  matrix and the packed column are single blocks that cover their arrays, so at every point the block is the array.
-/
import proofs.«129053_g2000003555652995_pallasbulk_24_34_alg».proof.Proof.KFrameIdeal
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- The block indices over the grid: the input and output windows move with the point along the batch axis, the
    two packed operands stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Entry b of the input block at point t is batch entry 2t + b of the input. -/
theorem iblk0_apply (c : Dev nD) (t : Fin cfg0.N) (x : S2x512x2048.Idx) (k : S16x512x2048.Idx)
    (hk0 : (k 0).val = 2 * t.val + (x 0).val) (hk1 : (k 1).val = (x 1).val) (hk2 : (k 2).val = (x 2).val) :
    (iblk m c 0 t : Vec F S2x512x2048 .f32) x = (V m c main_v0 : S16x512x2048.Idx → Elt F .f32) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 2 + 1 * (x 0).val = (k 0).val; rw [e0, hk0]; omega
  | ⟨1, _⟩ => show win0_0.index t 1 * 512 + 1 * (x 1).val = (k 1).val; rw [e1, hk1]; omega
  | ⟨2, _⟩ => show win0_0.index t 2 * 2048 + 1 * (x 2).val = (k 2).val; rw [e2, hk2]; omega

/-- The packed matrix's block is the packed matrix. -/
theorem iblk1_apply (c : Dev nD) (t : Fin cfg0.N) (x : S1024x512.Idx) :
    (iblk m c 1 t : Vec F S1024x512 .f32) x = (V m c main_v6 : S1024x512.Idx → Elt F .f32) x := by
  obtain ⟨-, -, -, e0, e1, -⟩ := idx_facts t
  unfold iblk
  rw [View.read_apply]
  show V m c main_v6 _ = V m c main_v6 _
  congr 1
  funext a
  apply Fin.ext
  match a with
  | ⟨0, _⟩ => show win0_1.index t 0 * 1024 + 1 * (x 0).val = (x 0).val; rw [e0]; omega
  | ⟨1, _⟩ => show win0_1.index t 1 * 512 + 1 * (x 1).val = (x 1).val; rw [e1]; omega

/-- The packed column's block is the packed column. -/
theorem iblk2_apply (c : Dev nD) (t : Fin cfg0.N) (x : S1024x1.Idx) :
    (iblk m c 2 t : Vec F S1024x1 .f32) x = (V m c main_v9 : S1024x1.Idx → Elt F .f32) x := by
  obtain ⟨-, -, -, -, -, e0, e1, -⟩ := idx_facts t
  unfold iblk
  rw [View.read_apply]
  show V m c main_v9 _ = V m c main_v9 _
  congr 1
  funext a
  apply Fin.ext
  match a with
  | ⟨0, _⟩ => show win0_2.index t 0 * 1024 + 1 * (x 0).val = (x 0).val; rw [e0]; omega
  | ⟨1, _⟩ => show win0_2.index t 1 * 1 + 1 * (x 1).val = (x 1).val; rw [e1]; omega

end Cert.KernelIdeal.Hand

end
-- ==== Proof.Spec.lean ====
/-
  The two arrangements of the gated channel attention, as functions of the argument arrays.

  The input X is read as [16, 512, 2048]: batch n, channel c, position s. The weights w1, g1 are [512, 256]
  (channel c, inner channel j), w2, g2 are [256, 512] (inner channel j, channel c), the biases b1, gb1 are [256]
  and b2, gb2 are [512]. Both programs compute, for every (n, c, s),

      X(n,c,s) · σ( local(n,c,s) + global(n,c) ),

  where the local branch is  ∑_j w2(j,c) · max(∑_c' w1(c',j) · X(n,c',s) + b1(j), 0) + b2(c)  and the global branch
  is the same two-layer map with g1, gb1, g2, gb2 applied to the mean of X(n,c',·) over the 2048 positions.
  They differ in how the mean is taken (a product with 2^-11 against a quotient by 2048), in the order of the two
  factors of each product of the global branch, in where the two output biases are added, and in the gate
  (1/2 + 1/2 · tanh(z/2) against the logistic function of z). `gateK` is the first arrangement, `gateR` the second.
-/
import Idealize.ShloMosaic.PureOps.Ideal
import Idealize.ShloMosaic.Lib.ValueIdx

noncomputable section

open scoped BigOperators

namespace Cert.Spec

open Idealize.ShloMosaic Idealize.ShloMosaic.ValueIdx

/-- The input read as batch × channel × position. -/
abbrev SX : Shape := ⟨3, ![16, 512, 2048]⟩
/-- A first-layer weight: channel × inner channel. -/
abbrev SW : Shape := ⟨2, ![512, 256]⟩
/-- A second-layer weight: inner channel × channel. -/
abbrev SV : Shape := ⟨2, ![256, 512]⟩
/-- A first-layer bias. -/
abbrev SI : Shape := ⟨1, ![256]⟩
/-- A second-layer bias. -/
abbrev SC : Shape := ⟨1, ![512]⟩

/-- The four float words the programs spell: 0, 1/2, 2^-11 and 2048. -/
abbrev zeroW : EReal := Ideal.ofBits .f32 0x00000000#32
abbrev halfW : EReal := Ideal.ofBits .f32 0x3F000000#32
abbrev invW : EReal := Ideal.ofBits .f32 0x3A000000#32
abbrev cntW : EReal := Ideal.ofBits .f32 0x45000000#32

variable (X : SX.Idx → EReal) (w1 : SW.Idx → EReal) (b1 : SI.Idx → EReal) (w2 : SV.Idx → EReal) (b2 : SC.Idx → EReal)
  (g1 : SW.Idx → EReal) (gb1 : SI.Idx → EReal) (g2 : SV.Idx → EReal) (gb2 : SC.Idx → EReal)

/-- The hidden layer of the local branch at batch n, inner channel j, position s. -/
def hid (n : Fin 16) (j : Fin 256) (s : Fin 2048) : EReal :=
  max ((∑ c : Fin 512, w1 (ix2 c j) * X (ix3 n c s)) + b1 (ix1 j)) zeroW

/-- The local branch before its output bias, at batch n, channel c, position s. -/
def loc (n : Fin 16) (c : Fin 512) (s : Fin 2048) : EReal :=
  ∑ j : Fin 256, w2 (ix2 j c) * hid X w1 b1 n j s

/-! ## The first arrangement -/

/-- The mean over positions as the sum times 2^-11. -/
def meanK (n : Fin 16) (c : Fin 512) : EReal := (∑ s : Fin 2048, X (ix3 n c s)) * invW

/-- The hidden layer of the global branch, weight first. -/
def hgK (n : Fin 16) (j : Fin 256) : EReal :=
  max ((∑ c : Fin 512, g1 (ix2 c j) * meanK X n c) + gb1 (ix1 j)) zeroW

/-- The global branch before its output bias, weight first. -/
def xgK (n : Fin 16) (c : Fin 512) : EReal := ∑ j : Fin 256, g2 (ix2 j c) * hgK X g1 gb1 n j

/-- The first arrangement at (n, c, s): both output biases added to the global branch, the gate through tanh. -/
def gateKat (n : Fin 16) (c : Fin 512) (s : Fin 2048) : EReal :=
  X (ix3 n c s) * (halfW + halfW * Ideal.tanh
    ((loc X w1 b1 w2 n c s + (xgK X g1 gb1 g2 n c + (b2 (ix1 c) + gb2 (ix1 c)))) * halfW))

/-- The first arrangement as an array. -/
def gateK : SX.Idx → EReal := fun i => gateKat X w1 b1 w2 b2 g1 gb1 g2 gb2 (i 0) (i 1) (i 2)

/-! ## The first arrangement over the packed operands

The first program hands its kernel ONE weight matrix W [1024, 512] and ONE bias column B [1024]: rows 0–255 hold
the local first layer (row j is w1(·, j), bias b1(j)), rows 256–511 the global first layer (row 256 + j is g1(·, j),
bias gb1(j)), and rows 512–1023 the two second layers side by side (row 512 + c holds w2(·, c) in columns 0–255 and
g2(·, c) in columns 256–511; its bias is b2(c) + gb2(c)). `blockGate` is the first arrangement for ONE batch entry
xb [512, 2048], written over W and B. -/

/-- Row j of the packed matrix: the local first layer. -/
def rowL (j : Fin 256) : Fin 1024 := ⟨j.val, by omega⟩
/-- Row 256 + j: the global first layer. -/
def rowG (j : Fin 256) : Fin 1024 := ⟨256 + j.val, by omega⟩
/-- Row 512 + c: the second layers. -/
def rowO (c : Fin 512) : Fin 1024 := ⟨512 + c.val, by omega⟩
/-- Column j: the local second layer's part of a row. -/
def colL (j : Fin 256) : Fin 512 := ⟨j.val, by omega⟩
/-- Column 256 + j: the global second layer's part of a row. -/
def colG (j : Fin 256) : Fin 512 := ⟨256 + j.val, by omega⟩

/-- The first arrangement for one batch entry xb over the packed matrix W and the packed bias B, at (c, s). -/
def blockGate (xb : Fin 512 → Fin 2048 → EReal) (W : Fin 1024 → Fin 512 → EReal) (B : Fin 1024 → EReal)
    (c : Fin 512) (s : Fin 2048) : EReal :=
  xb c s * (halfW + halfW * Ideal.tanh
    (((∑ j : Fin 256, W (rowO c) (colL j) * max ((∑ c' : Fin 512, W (rowL j) c' * xb c' s) + B (rowL j)) zeroW)
      + ((∑ j : Fin 256, W (rowO c) (colG j)
            * max ((∑ c' : Fin 512, W (rowG j) c' * ((∑ s' : Fin 2048, xb c' s') * invW)) + B (rowG j)) zeroW)
          + B (rowO c))) * halfW))

/-! ## The second arrangement -/

/-- The mean over positions as the sum from 0 divided by 2048. -/
def meanR (n : Fin 16) (c : Fin 512) : EReal := Ideal.div (zeroW + ∑ s : Fin 2048, X (ix3 n c s)) cntW

/-- The hidden layer of the global branch, mean first. -/
def hgR (n : Fin 16) (j : Fin 256) : EReal :=
  max ((∑ c : Fin 512, meanR X n c * g1 (ix2 c j)) + gb1 (ix1 j)) zeroW

/-- The global branch with its output bias, hidden value first. -/
def xgR (n : Fin 16) (c : Fin 512) : EReal :=
  (∑ j : Fin 256, hgR X g1 gb1 n j * g2 (ix2 j c)) + gb2 (ix1 c)

/-- The second arrangement at (n, c, s): each branch with its own output bias, the gate the logistic function. -/
def gateRat (n : Fin 16) (c : Fin 512) (s : Fin 2048) : EReal :=
  X (ix3 n c s) * Ideal.logistic ((loc X w1 b1 w2 n c s + b2 (ix1 c)) + xgR X g1 gb1 g2 gb2 n c)

/-- The second arrangement as an array. -/
def gateR : SX.Idx → EReal := fun i => gateRat X w1 b1 w2 b2 g1 gb1 g2 gb2 (i 0) (i 1) (i 2)

end Cert.Spec

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.KPayLayers.lean ====
/-
  The pieces of the channel attention, each read at one entry on the extended reals: the mean over positions,
  a first layer with its bias and its maximum with 0, and a second layer.

  A branch of the attention is a two-layer map over the channels. Its first layer takes an input x [C, N] (C
  channels, N columns) to max(w · x + b, 0) [H, N]: entry (j, q) is the maximum of 0 and the sum over the channels
  c' of w(j, c') · x(c', q), plus the bias b(j), which is stored as a column [H, 1] and repeated along the N
  columns. Its second layer is the product v · h of a weight v [C, H] with the hidden values h [H, N]: entry (c, q)
  is the sum over j of v(c, j) · h(j, q). Both hold for every number of columns N: the local branch has one
  column per position, the global branch repeats one column over the lanes. The input of the global branch is the
  mean over the positions, taken as the row sum times a constant word m, kept as a column and repeated: entry
  (c', l) is (the sum over s' of x(c', s')) · m whatever the lane l.
-/
import proofs.«129053_g2000003555652995_pallasbulk_24_34_alg».proof.Proof.LibPlainDot
import proofs.«129053_g2000003555652995_pallasbulk_24_34_alg».proof.Proof.LibColumn

noncomputable section

open scoped BigOperators

namespace Cert.KernelIdeal.PayValue

open Idealize.ShloMosaic Idealize.ShloMosaic.ValueIdx

/-- The first layer at hidden channel j and column q: the weight is cast to its own shape (the identity), multiplied
    into the zero accumulator with the input, the bias column is repeated along the columns and added, and the
    maximum with the zero word is taken. -/
theorem firstLayer_apply {H C N : Nat} (w : FVec Ideal ⟨2, ![H, C]⟩ .f32) (b : FVec Ideal ⟨2, ![H, 1]⟩ .f32)
    (x : FVec Ideal ⟨2, ![C, N]⟩ .f32) (hw : (⟨2, ![H, C]⟩ : Shape).ShapeCasts ⟨2, ![H, C]⟩)
    (hb : (⟨2, ![H, 1]⟩ : Shape).ShapeCasts ⟨2, ![H, 1]⟩) (hbr : (⟨2, ![H, 1]⟩ : Shape).Broadcasts ⟨2, ![H, N]⟩)
    (j : Fin H) (q : Fin N) :
    maximumf
        (addf (matmul (DotDims.plain H C N) none (shapeCast ⟨2, ![H, C]⟩ w hw) x
            (constant (F := Ideal) ⟨2, ![H, N]⟩ .f32 0x00000000#32))
          (broadcastTo ⟨2, ![H, N]⟩ (shapeCast ⟨2, ![H, 1]⟩ b hb) hbr))
        (broadcast ⟨2, ![H, N]⟩ (Scalar.ofBits (F := Ideal) .f32 0x00000000#32)) (ix2 j q)
      = max ((∑ c' : Fin C, w (ix2 j c') * x (ix2 c' q)) + b (ix2 j (0 : Fin 1))) (Ideal.ofBits .f32 0x00000000#32) := by
  have hsum : matmul (DotDims.plain H C N) none (shapeCast ⟨2, ![H, C]⟩ w hw) x
        (constant (F := Ideal) ⟨2, ![H, N]⟩ .f32 0x00000000#32) (ix2 j q) = ∑ c' : Fin C, w (ix2 j c') * x (ix2 c' q) :=
    (Cert.LibPlainDot.matmul_zero_apply none _ x j q).trans
      (Finset.sum_congr rfl fun c' _ => congrArg (· * x (ix2 c' q)) (congrFun (shapeCast_self w hw) (ix2 j c')))
  have hbias : broadcastTo ⟨2, ![H, N]⟩ (shapeCast ⟨2, ![H, 1]⟩ b hb) hbr (ix2 j q) = b (ix2 j (0 : Fin 1)) :=
    (Cert.LibColumn.broadcastTo_a1_ab_apply _ hbr j q).trans (congrFun (shapeCast_self b hb) _)
  exact congrArg₂ (fun u v : EReal => max (u + v) (Ideal.ofBits .f32 0x00000000#32)) hsum hbias

/-- The second layer at channel c and column q: the weight, cast to its own shape, multiplied into the zero
    accumulator with the hidden values. -/
theorem secondLayer_apply {C H N : Nat} (v : FVec Ideal ⟨2, ![C, H]⟩ .f32) (h : FVec Ideal ⟨2, ![H, N]⟩ .f32)
    (hv : (⟨2, ![C, H]⟩ : Shape).ShapeCasts ⟨2, ![C, H]⟩) (c : Fin C) (q : Fin N) :
    matmul (DotDims.plain C H N) none (shapeCast ⟨2, ![C, H]⟩ v hv) h
        (constant (F := Ideal) ⟨2, ![C, N]⟩ .f32 0x00000000#32) (ix2 c q)
      = ∑ j : Fin H, v (ix2 c j) * h (ix2 j q) :=
  (Cert.LibPlainDot.matmul_zero_apply none _ h c q).trans
    (Finset.sum_congr rfl fun j _ => congrArg (· * h (ix2 j q)) (congrFun (shapeCast_self v hv) (ix2 c j)))

/-- The mean column at channel c' and lane l: the rows of x [C, S] are summed, the vector of sums is made a column,
    multiplied by the word m, cast to its own shape and repeated along L lanes. -/
theorem meanLanes_apply {C S L : Nat} (x : FVec Ideal ⟨2, ![C, S]⟩ .f32) (m : BitVec 32)
    (hred : (⟨2, ![C, S]⟩ : Shape).Reduces [1] ⟨1, ![C]⟩) (hφ : FKind.Formats .f32)
    (hacc : (0x00000000#32 : BitVec 32) = FKind.add.neutral .f32 hφ)
    (h1 : (⟨1, ![C]⟩ : Shape).ShapeCasts ⟨2, ![C, 1]⟩) (h2 : (⟨2, ![C, 1]⟩ : Shape).ShapeCasts ⟨2, ![C, 1]⟩)
    (h3 : (⟨2, ![C, 1]⟩ : Shape).Broadcasts ⟨2, ![C, L]⟩) (c' : Fin C) (l : Fin L) :
    broadcastTo ⟨2, ![C, L]⟩
        (shapeCast ⟨2, ![C, 1]⟩
          (mulf (shapeCast ⟨2, ![C, 1]⟩ (multiReduction (F := Ideal) .add [1] ⟨1, ![C]⟩ x 0x00000000#32 hred hφ hacc) h1)
            (broadcast ⟨2, ![C, 1]⟩ (Scalar.ofBits (F := Ideal) .f32 m))) h2) h3 (ix2 c' l)
      = (∑ s' : Fin S, x (ix2 c' s')) * Ideal.ofBits .f32 m :=
  (Cert.LibColumn.broadcastTo_a1_ab_apply _ h3 c' l).trans
    ((congrFun (shapeCast_self _ h2) (ix2 c' (0 : Fin 1))).trans
      (congrArg (· * Ideal.ofBits .f32 m)
        ((Cert.LibColumn.shapeCast_a_a1_apply _ h1 c' 0).trans (Cert.LibColumn.rowSum_apply x hred hφ hacc c'))))

end Cert.KernelIdeal.PayValue

end
-- ==== Proof.KPayBranches.lean ====
/-
  What the body computes from the pieces it has loaded, read at one entry on the extended reals.

  The body holds a slab x [1, 512, 2048] of the input (one batch entry: channel c, position s), and of each branch a
  first weight [256, 512] with its bias column [256, 1] and a second weight [512, 256]; the summed output biases are
  a column [512, 1]. It views the slab as a matrix [512, 2048]. The local branch is the two-layer map applied to
  the slab itself, one column per position. The global branch is the same map applied to the mean over the
  positions (the row sum times the word 2^-11), repeated over 128 lanes of which column 0 is kept: it is a column
  [512, 1]. The stored value at (c, s) is x(c, s) · (1/2 + 1/2 · tanh(z · 1/2)) with z the local branch at (c, s)
  plus the sum of the global branch and the output bias at c. The body computes the value for the second batch
  entry with the local branch written in place; it is the same term.
-/
import proofs.«129053_g2000003555652995_pallasbulk_24_34_alg».proof.Proof.Gen.KernelIdeal.Skeleton
import proofs.«129053_g2000003555652995_pallasbulk_24_34_alg».proof.Proof.KPayLayers
import Idealize.ShloMosaic.Lib.ValueLayout

noncomputable section

open scoped BigOperators

namespace Cert.KernelIdeal.PayValue

open Cert.KernelIdeal Cert.KernelIdeal.Gen Idealize.ShloMosaic Idealize.ShloMosaic.ValueIdx

/-- The slab viewed as a matrix: entry (c, s) is the slab's entry (0, c, s). -/
theorem pay2_apply (v0 : Vec Ideal S1x512x2048 .f32) (c : Fin 512) (s : Fin 2048) :
    k0_pay2 v0 (ix2 c s) = v0 (ix3 (0 : Fin 1) c s) :=
  shapeCast_1ab_ab_apply v0 _ c s

/-- The local branch at channel c and position s: the second layer of the first layer of the slab's column s. -/
theorem pay4_apply (v0 : Vec Ideal S1x512x2048 .f32) (v21 : Vec Ideal S256x512 .f32) (v24 : Vec Ideal S256x1 .f32)
    (v30 : Vec Ideal S512x256 .f32) (c : Fin 512) (s : Fin 2048) :
    k0_pay4 v0 v21 v24 v30 (ix2 c s)
      = ∑ j : Fin 256, v30 (ix2 c j)
          * max ((∑ c' : Fin 512, v21 (ix2 j c') * v0 (ix3 (0 : Fin 1) c' s)) + v24 (ix2 j (0 : Fin 1)))
              (Ideal.ofBits .f32 0x00000000#32) := by
  unfold k0_pay4
  refine (secondLayer_apply (C := 512) (H := 256) (N := 2048) v30 _ _ c s).trans ?_
  refine Finset.sum_congr rfl fun j _ => congrArg (v30 (ix2 c j) * ·) ?_
  refine (firstLayer_apply (H := 256) (C := 512) (N := 2048) v21 v24 (k0_pay2 v0) _ _ _ j s).trans ?_
  exact congrArg (fun z : EReal => max (z + v24 (ix2 j (0 : Fin 1))) (Ideal.ofBits .f32 0x00000000#32))
    (Finset.sum_congr rfl fun c' _ => congrArg (v21 (ix2 j c') * ·) (pay2_apply v0 c' s))

/-- The global branch at channel c (its one column u): column 0 of the second layer of the first layer of the mean
    column, the mean of channel c' being the sum of the slab's row c' times the word 2^-11. -/
theorem pay3_apply (v0 : Vec Ideal S1x512x2048 .f32) (v8 : Vec Ideal S256x512 .f32) (v11 : Vec Ideal S256x1 .f32)
    (v17 : Vec Ideal S512x256 .f32) (c : Fin 512) (u : Fin 1) :
    k0_pay3 v0 v8 v11 v17 (ix2 c u)
      = ∑ j : Fin 256, v17 (ix2 c j)
          * max ((∑ c' : Fin 512, v8 (ix2 j c')
                    * ((∑ s' : Fin 2048, v0 (ix3 (0 : Fin 1) c' s')) * Ideal.ofBits .f32 0x3A000000#32))
                  + v11 (ix2 j (0 : Fin 1)))
              (Ideal.ofBits .f32 0x00000000#32) := by
  unfold k0_pay3
  -- column 0 of the [512, 128] product: the slice at offsets (0, 0) reads (c, 0) at (c, u)
  refine (extractStridedSlice_apply ![0, 0] _ slices_S512x128_o0_0_S512x1 (ix2 c u) (ix2 c (0 : Fin 128)) (fun a => ?_)).trans ?_
  · match a with
    | ⟨0, _⟩ => show c.val = 0 + c.val; omega
    | ⟨1, _⟩ => show 0 = 0 + u.val; omega
  refine (secondLayer_apply (C := 512) (H := 256) (N := 128) v17 _ _ c 0).trans ?_
  refine Finset.sum_congr rfl fun j _ => congrArg (v17 (ix2 c j) * ·) ?_
  refine (firstLayer_apply (H := 256) (C := 512) (N := 128) v8 v11 _ _ _ _ j 0).trans ?_
  refine congrArg (fun z : EReal => max (z + v11 (ix2 j (0 : Fin 1))) (Ideal.ofBits .f32 0x00000000#32))
    (Finset.sum_congr rfl fun c' _ => congrArg (v8 (ix2 j c') * ·) ?_)
  refine (meanLanes_apply (C := 512) (S := 2048) (L := 128) (k0_pay2 v0) 0x3A000000#32 _ _ _ _ _ _ c' 0).trans ?_
  exact congrArg (· * Ideal.ofBits .f32 0x3A000000#32) (Finset.sum_congr rfl fun s' _ => pay2_apply v0 c' s')

/-- The stored value at (c, s) from the matrix view v1 of the slab, the global column v20, the local branch v32 and the
    output bias column v33. -/
theorem pay5_apply (v1 : FVec Ideal S512x2048 .f32) (v20 : FVec Ideal S512x1 .f32) (v32 : FVec Ideal S512x2048 .f32)
    (v33 : Vec Ideal S512x1 .f32) (c : Fin 512) (s : Fin 2048) :
    k0_pay5 v1 v20 v32 v33 (ix3 (0 : Fin 1) c s)
      = v1 (ix2 c s) * (Ideal.ofBits .f32 0x3F000000#32 + Ideal.ofBits .f32 0x3F000000#32 * Ideal.tanh
          ((v32 (ix2 c s) + (v20 (ix2 c (0 : Fin 1)) + v33 (ix2 c (0 : Fin 1)))) * Ideal.ofBits .f32 0x3F000000#32)) := by
  unfold k0_pay5
  refine (shapeCast_ab_1ab_apply _ shapeCasts_S512x2048_S1x512x2048 (0 : Fin 1) c s).trans ?_
  have hb : broadcastTo S512x2048 (addf v20 (shapeCast S512x1 v33 shapeCasts_S512x1_S512x1)) broadcasts_S512x1_S512x2048 (ix2 c s)
      = v20 (ix2 c (0 : Fin 1)) + v33 (ix2 c (0 : Fin 1)) :=
    (Cert.LibColumn.broadcastTo_a1_ab_apply _ broadcasts_S512x1_S512x2048 c s).trans
      (congrArg (v20 (ix2 c (0 : Fin 1)) + ·) (congrFun (shapeCast_self v33 shapeCasts_S512x1_S512x1) _))
  exact congrArg (fun z : EReal => v1 (ix2 c s) * (Ideal.ofBits .f32 0x3F000000#32 + Ideal.ofBits .f32 0x3F000000#32
    * Ideal.tanh ((v32 (ix2 c s) + z) * Ideal.ofBits .f32 0x3F000000#32))) hb

/-- The second batch entry's stored value, with the local branch written in place, is the first one's term. -/
theorem pay1_eq (v49 : Vec Ideal S1x512x2048 .f32) (v57 : Vec Ideal S256x512 .f32) (v60 : Vec Ideal S256x1 .f32)
    (v66 : Vec Ideal S512x256 .f32) (v70 : Vec Ideal S256x512 .f32) (v73 : Vec Ideal S256x1 .f32)
    (v79 : Vec Ideal S512x256 .f32) (v82 : Vec Ideal S512x1 .f32) :
    k0_pay1 (k0_pay6 v49) (k0_pay7 v49 v57 v60 v66) v70 v73 v79 v82
      = k0_pay5 (k0_pay2 v49) (k0_pay3 v49 v57 v60 v66) (k0_pay4 v49 v70 v73 v79) v82 := rfl

end Cert.KernelIdeal.PayValue

end
-- ==== Proof.KPayLoads.lean ====
/-
  The body's loads, read at one entry: each is a rectangle of unit stride, so the loaded entry at an index is the
  source's entry at the rectangle's offset plus the index.

  Of the input block [2, 512, 2048] the body loads batch entry 0 and batch entry 1, each as a slab [1, 512, 2048]:
  entry (u, c, s) of the slab is the block's entry (0, c, s), respectively (1, c, s). Of the packed matrix
  [1024, 512] it loads the rows 0–255 (row j of the piece is row j of the matrix: the local first layer), the rows
  256–511 (row 256 + j: the global first layer), and of the rows 512–1023 the columns 0–255 (entry (c, j) of the
  piece is the matrix's entry (512 + c, j): the local second layer) and the columns 256–511 (entry (512 + c, 256 + j):
  the global second layer). Of the packed column [1024, 1] it loads the rows 0–255, 256–511 and 512–1023, the biases
  of the local first layer, of the global first layer and of the output.
-/
import proofs.«129053_g2000003555652995_pallasbulk_24_34_alg».proof.Proof.KDefsIdeal
import proofs.«129053_g2000003555652995_pallasbulk_24_34_alg».proof.Proof.Spec

noncomputable section

namespace Cert.KernelIdeal.PayValue

open Cert.KernelIdeal Cert.KernelIdeal.Gen Cert.KernelIdeal.Hand Idealize.ShloMosaic Idealize.ShloMosaic.ValueIdx
open Cert.Spec (rowL rowG rowO colL colG)

variable (x0 : Vec Ideal S2x512x2048 .f32) (x1 : Vec Ideal S1024x512 .f32) (x2 : Vec Ideal S1024x1 .f32)

/-- Batch entry 0 of the block. -/
theorem ld_rA_apply (u : Fin 1) (c : Fin 512) (s : Fin 2048) :
    View.ld x0 rA (ix3 u c s) = x0 (ix3 (0 : Fin 2) c s) := by
  refine congrArg x0 (funext fun a => Fin.ext ?_)
  match a with
  | ⟨0, _⟩ => show 0 + 1 * u.val = 0; omega
  | ⟨1, _⟩ => show 0 + 1 * c.val = c.val; omega
  | ⟨2, _⟩ => show 0 + 1 * s.val = s.val; omega

/-- Batch entry 1 of the block. -/
theorem ld_rB_apply (u : Fin 1) (c : Fin 512) (s : Fin 2048) :
    View.ld x0 rB (ix3 u c s) = x0 (ix3 (1 : Fin 2) c s) := by
  refine congrArg x0 (funext fun a => Fin.ext ?_)
  match a with
  | ⟨0, _⟩ => show 1 + 1 * u.val = 1; omega
  | ⟨1, _⟩ => show 0 + 1 * c.val = c.val; omega
  | ⟨2, _⟩ => show 0 + 1 * s.val = s.val; omega

/-- The local first layer: the rows 0–255 of the matrix. -/
theorem ld_mL1_apply (j : Fin 256) (k : Fin 512) : View.ld x1 mL1 (ix2 j k) = x1 (ix2 (rowL j) k) := by
  refine congrArg x1 (funext fun a => Fin.ext ?_)
  match a with
  | ⟨0, _⟩ => show 0 + 1 * j.val = j.val; omega
  | ⟨1, _⟩ => show 0 + 1 * k.val = k.val; omega

/-- The global first layer: the rows 256–511 of the matrix. -/
theorem ld_mG1_apply (j : Fin 256) (k : Fin 512) : View.ld x1 mG1 (ix2 j k) = x1 (ix2 (rowG j) k) := by
  refine congrArg x1 (funext fun a => Fin.ext ?_)
  match a with
  | ⟨0, _⟩ => show 256 + 1 * j.val = 256 + j.val; omega
  | ⟨1, _⟩ => show 0 + 1 * k.val = k.val; omega

/-- The local second layer: the rows 512–1023 of the matrix in the columns 0–255. -/
theorem ld_mL2_apply (c : Fin 512) (j : Fin 256) : View.ld x1 mL2 (ix2 c j) = x1 (ix2 (rowO c) (colL j)) := by
  refine congrArg x1 (funext fun a => Fin.ext ?_)
  match a with
  | ⟨0, _⟩ => show 512 + 1 * c.val = 512 + c.val; omega
  | ⟨1, _⟩ => show 0 + 1 * j.val = j.val; omega

/-- The global second layer: the rows 512–1023 of the matrix in the columns 256–511. -/
theorem ld_mG2_apply (c : Fin 512) (j : Fin 256) : View.ld x1 mG2 (ix2 c j) = x1 (ix2 (rowO c) (colG j)) := by
  refine congrArg x1 (funext fun a => Fin.ext ?_)
  match a with
  | ⟨0, _⟩ => show 512 + 1 * c.val = 512 + c.val; omega
  | ⟨1, _⟩ => show 256 + 1 * j.val = 256 + j.val; omega

/-- The local first bias: the rows 0–255 of the column. -/
theorem ld_cL_apply (j : Fin 256) (u : Fin 1) : View.ld x2 cL (ix2 j u) = x2 (ix2 (rowL j) (0 : Fin 1)) := by
  refine congrArg x2 (funext fun a => Fin.ext ?_)
  match a with
  | ⟨0, _⟩ => show 0 + 1 * j.val = j.val; omega
  | ⟨1, _⟩ => show 0 + 1 * u.val = 0; omega

/-- The global first bias: the rows 256–511 of the column. -/
theorem ld_cG_apply (j : Fin 256) (u : Fin 1) : View.ld x2 cG (ix2 j u) = x2 (ix2 (rowG j) (0 : Fin 1)) := by
  refine congrArg x2 (funext fun a => Fin.ext ?_)
  match a with
  | ⟨0, _⟩ => show 256 + 1 * j.val = 256 + j.val; omega
  | ⟨1, _⟩ => show 0 + 1 * u.val = 0; omega

/-- The summed output biases: the rows 512–1023 of the column. -/
theorem ld_cO_apply (c : Fin 512) (u : Fin 1) : View.ld x2 cO (ix2 c u) = x2 (ix2 (rowO c) (0 : Fin 1)) := by
  refine congrArg x2 (funext fun a => Fin.ext ?_)
  match a with
  | ⟨0, _⟩ => show 512 + 1 * c.val = 512 + c.val; omega
  | ⟨1, _⟩ => show 0 + 1 * u.val = 0; omega

end Cert.KernelIdeal.PayValue

end
-- ==== Proof.KPay.lean ====
/-
  What the body stores for the two batch entries of its block, read at one entry on the extended reals: the gate of
  the specification over the packed matrix and the packed column.

  For one batch entry the stored value at channel c and position s is

      x(c, s) · (1/2 + 1/2 · tanh((local(c, s) + (global(c) + bias(c))) · 1/2)),

  where local is the two-layer map of the slab's column s and global the two-layer map of the slab's mean over the
  positions. The arithmetic is proved once, over the eight loaded pieces as separate arrays (`pieceGate`); the
  specification's `blockGate` is the same formula with each piece read out of the packed matrix W or the packed
  column B (the local first layer in the rows 0–255, the global first layer in the rows 256–511, the two second layers
  side by side in the rows 512–1023, the biases in the same rows of B), and the body's loads read exactly those
  rows and columns. The two stores differ only in the batch entry of the block they load.
-/
import proofs.«129053_g2000003555652995_pallasbulk_24_34_alg».proof.Proof.KPayBranches
import proofs.«129053_g2000003555652995_pallasbulk_24_34_alg».proof.Proof.KPayLoads

noncomputable section

open scoped BigOperators

namespace Cert.KernelIdeal.PayValue

open Cert.KernelIdeal Cert.KernelIdeal.Gen Cert.KernelIdeal.Hand Idealize.ShloMosaic Idealize.ShloMosaic.ValueIdx
open Cert.Spec (rowL rowG rowO colL colG zeroW halfW invW)

/-- The gate for one batch entry xb over separate pieces: the local first layer wl1 with bias bl and second layer wl2,
    the global first layer wg1 with bias bg and second layer wg2, and the summed output bias bo. -/
def pieceGate (xb : Fin 512 → Fin 2048 → EReal) (wl1 : Fin 256 → Fin 512 → EReal) (bl : Fin 256 → EReal)
    (wl2 : Fin 512 → Fin 256 → EReal) (wg1 : Fin 256 → Fin 512 → EReal) (bg : Fin 256 → EReal)
    (wg2 : Fin 512 → Fin 256 → EReal) (bo : Fin 512 → EReal) (c : Fin 512) (s : Fin 2048) : EReal :=
  xb c s * (halfW + halfW * Ideal.tanh
    (((∑ j : Fin 256, wl2 c j * max ((∑ c' : Fin 512, wl1 j c' * xb c' s) + bl j) zeroW)
      + ((∑ j : Fin 256, wg2 c j
            * max ((∑ c' : Fin 512, wg1 j c' * ((∑ s' : Fin 2048, xb c' s') * invW)) + bg j) zeroW)
          + bo c)) * halfW))

/-- The specification's gate over the packed operands is the gate over the pieces the packing holds. -/
theorem blockGate_eq_pieceGate (xb : Fin 512 → Fin 2048 → EReal) (W : Fin 1024 → Fin 512 → EReal) (B : Fin 1024 → EReal) :
    Cert.Spec.blockGate xb W B
      = pieceGate xb (fun j c' => W (rowL j) c') (fun j => B (rowL j)) (fun c j => W (rowO c) (colL j))
          (fun j c' => W (rowG j) c') (fun j => B (rowG j)) (fun c j => W (rowO c) (colG j)) (fun c => B (rowO c)) := rfl

/-- The gate depends on its pieces entry by entry. -/
theorem pieceGate_congr {xb xb' : Fin 512 → Fin 2048 → EReal} {wl1 wl1' : Fin 256 → Fin 512 → EReal}
    {bl bl' : Fin 256 → EReal} {wl2 wl2' : Fin 512 → Fin 256 → EReal} {wg1 wg1' : Fin 256 → Fin 512 → EReal}
    {bg bg' : Fin 256 → EReal} {wg2 wg2' : Fin 512 → Fin 256 → EReal} {bo bo' : Fin 512 → EReal}
    (hx : ∀ c s, xb c s = xb' c s) (hl1 : ∀ j c', wl1 j c' = wl1' j c') (hbl : ∀ j, bl j = bl' j)
    (hl2 : ∀ c j, wl2 c j = wl2' c j) (hg1 : ∀ j c', wg1 j c' = wg1' j c') (hbg : ∀ j, bg j = bg' j)
    (hg2 : ∀ c j, wg2 c j = wg2' c j) (hbo : ∀ c, bo c = bo' c) (c : Fin 512) (s : Fin 2048) :
    pieceGate xb wl1 bl wl2 wg1 bg wg2 bo c s = pieceGate xb' wl1' bl' wl2' wg1' bg' wg2' bo' c s := by
  obtain rfl : xb = xb' := funext fun c => funext fun s => hx c s
  obtain rfl : wl1 = wl1' := funext fun j => funext fun c' => hl1 j c'
  obtain rfl : bl = bl' := funext hbl
  obtain rfl : wl2 = wl2' := funext fun c => funext fun j => hl2 c j
  obtain rfl : wg1 = wg1' := funext fun j => funext fun c' => hg1 j c'
  obtain rfl : bg = bg' := funext hbg
  obtain rfl : wg2 = wg2' := funext fun c => funext fun j => hg2 c j
  obtain rfl : bo = bo' := funext hbo
  rfl

/-- The stored value over the loaded pieces: a slab xs, the global pieces wG1, bG, wG2, the local pieces wL1, bL, wL2
    and the output bias column bO. -/
theorem pieces_apply (xs : Vec Ideal S1x512x2048 .f32) (wG1 : Vec Ideal S256x512 .f32) (bG : Vec Ideal S256x1 .f32)
    (wG2 : Vec Ideal S512x256 .f32) (wL1 : Vec Ideal S256x512 .f32) (bL : Vec Ideal S256x1 .f32)
    (wL2 : Vec Ideal S512x256 .f32) (bO : Vec Ideal S512x1 .f32) (c : Fin 512) (s : Fin 2048) :
    k0_pay5 (k0_pay2 xs) (k0_pay3 xs wG1 bG wG2) (k0_pay4 xs wL1 bL wL2) bO (ix3 (0 : Fin 1) c s)
      = pieceGate (fun c s => xs (ix3 (0 : Fin 1) c s)) (fun j c' => wL1 (ix2 j c')) (fun j => bL (ix2 j (0 : Fin 1)))
          (fun c j => wL2 (ix2 c j)) (fun j c' => wG1 (ix2 j c')) (fun j => bG (ix2 j (0 : Fin 1)))
          (fun c j => wG2 (ix2 c j)) (fun c => bO (ix2 c (0 : Fin 1))) c s := by
  rw [pay5_apply, pay2_apply, pay3_apply, pay4_apply]
  rfl

/-- The store for batch entry 0 of the block. -/
theorem payA_apply (x0 : Vec Ideal S2x512x2048 .f32) (x1 : Vec Ideal S1024x512 .f32) (x2 : Vec Ideal S1024x1 .f32)
    (c : Fin 512) (s : Fin 2048) :
    payA x0 x1 x2 (ix3 (0 : Fin 1) c s)
      = Cert.Spec.blockGate (fun c s => x0 (ix3 (0 : Fin 2) c s)) (fun r k => x1 (ix2 r k))
          (fun r => x2 (ix2 r (0 : Fin 1))) c s := by
  unfold payA
  rw [blockGate_eq_pieceGate]
  exact (pieces_apply (View.ld x0 rA) (View.ld x1 mG1) (View.ld x2 cG) (View.ld x1 mG2) (View.ld x1 mL1)
      (View.ld x2 cL) (View.ld x1 mL2) (View.ld x2 cO) c s).trans
    (pieceGate_congr (fun c s => ld_rA_apply x0 0 c s) (fun j c' => ld_mL1_apply x1 j c') (fun j => ld_cL_apply x2 j 0)
      (fun c j => ld_mL2_apply x1 c j) (fun j c' => ld_mG1_apply x1 j c') (fun j => ld_cG_apply x2 j 0)
      (fun c j => ld_mG2_apply x1 c j) (fun c => ld_cO_apply x2 c 0) c s)

/-- The store for batch entry 1 of the block: the same term on the other slab. -/
theorem payB_apply (x0 : Vec Ideal S2x512x2048 .f32) (x1 : Vec Ideal S1024x512 .f32) (x2 : Vec Ideal S1024x1 .f32)
    (c : Fin 512) (s : Fin 2048) :
    payB x0 x1 x2 (ix3 (0 : Fin 1) c s)
      = Cert.Spec.blockGate (fun c s => x0 (ix3 (1 : Fin 2) c s)) (fun r k => x1 (ix2 r k))
          (fun r => x2 (ix2 r (0 : Fin 1))) c s := by
  unfold payB
  rw [pay1_eq, blockGate_eq_pieceGate]
  exact (pieces_apply (View.ld x0 rB) (View.ld x1 mG1) (View.ld x2 cG) (View.ld x1 mG2) (View.ld x1 mL1)
      (View.ld x2 cL) (View.ld x1 mL2) (View.ld x2 cO) c s).trans
    (pieceGate_congr (fun c s => ld_rB_apply x0 0 c s) (fun j c' => ld_mL1_apply x1 j c') (fun j => ld_cL_apply x2 j 0)
      (fun c j => ld_mL2_apply x1 c j) (fun j c' => ld_mG1_apply x1 j c') (fun j => ld_cG_apply x2 j 0)
      (fun c j => ld_mG2_apply x1 c j) (fun c => ld_cO_apply x2 c 0) c s)

end Cert.KernelIdeal.PayValue

end
-- ==== Proof.LibNary3.lean ====
/-
  A three-operand operation's result, with each operand's contents at its own reference.

  An operation over a family of operands hands its function the family of their contents, k ↦ (contents at operand k).
  For a literal family of three references the family of contents is the literal triple of the three contents: at
  k = 0, 1, 2 both give the contents at the first, the second, the third reference.  Stated with the triple, the
  contents of each operand stand at a literal reference and can be rewritten further one by one.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family of three references x, a, b: its function at the triple of
    the contents at x, at a and at b. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]
  congr 1
  funext k
  fin_cases k <;> rfl

end Cert.LibNary3

end
-- ==== Proof.KArrHostPack.lean ====
/-
  The packed weight matrix and the packed bias column, entry by entry.

  Four weight arrays are laid into one matrix W [1024, 512]. The first-layer weights w1, g1 [512, 256] are
  transposed to [256, 512] and stacked: W(j, k) = w1(k, j) for the rows j < 256 and W(256 + j, k) = g1(k, j) for
  the next 256 rows. The second-layer weights w2, g2 [256, 512] are transposed to [512, 256] and set side by side
  into a [512, 512] matrix, which is stacked below: W(512 + c, j) = w2(j, c) in the columns j < 256 and
  W(512 + c, 256 + j) = g2(j, c) in the other 256 columns.

  Three bias vectors are laid end to end into one vector of length 1024: b1 [256], then gb1 [256], then the
  entrywise sum b2 + gb2 [512]; the vector is then read as a column [1024, 1], which keeps the row-major order, so
  row r of the column is entry r of the vector.

  A stacking of pieces along an axis reads, at an index whose coordinate on that axis is p, the piece whose span
  holds p, at p less the extents of the pieces before it; a transposed matrix reads at (j, i) the matrix at (i, j).
  Every fact below is these two readings composed, with the row or column written as the specification writes it.
-/
import proofs.«129053_g2000003555652995_pallasbulk_24_34_alg».proof.Proof.Gen.KernelIdeal
import proofs.«129053_g2000003555652995_pallasbulk_24_34_alg».proof.Proof.LibColumn
import proofs.«129053_g2000003555652995_pallasbulk_24_34_alg».proof.Proof.Spec
import Idealize.ShloMosaic.Lib.ValueIdx
import Idealize.ShloMosaic.Lib.ValueLayout
import Idealize.ShloMosaic.Lib.Pipeline.Value

noncomputable section

namespace Cert.KernelIdeal.ArrValue

open Idealize.ShloMosaic Idealize.ShloMosaic.ValueIdx
open Cert.KernelIdeal Cert.KernelIdeal.Gen

variable {α : Type}

/-! ## The packed matrix -/

/-- The two second-layer weights, each transposed to [512, 256], side by side: a [512, 512] matrix. -/
def packO (w2 g2 : S256x512.Idx → α) : S512x512.Idx → α :=
  concatenate S512x512 1
    [⟨S512x256, transpose S512x256 [1, 0] w2 transposes_S256x512_S512x256_1_0⟩,
     ⟨S512x256, transpose S512x256 [1, 0] g2 transposes_S256x512_S512x256_1_0⟩]
    concatenates_S512x256_S512x256_S512x512_d1

/-- The packed matrix: w1 transposed, g1 transposed and the side-by-side second layers, stacked. -/
def packW (w1 g1 : S512x256.Idx → α) (w2 g2 : S256x512.Idx → α) : S1024x512.Idx → α :=
  concatenate S1024x512 0
    [⟨S256x512, transpose S256x512 [1, 0] w1 transposes_S512x256_S256x512_1_0⟩,
     ⟨S256x512, transpose S256x512 [1, 0] g1 transposes_S512x256_S256x512_1_0⟩,
     ⟨S512x512, packO w2 g2⟩]
    concatenates_S256x512_S256x512_S512x512_S1024x512_d0

/-- Entry (c, j) of the side-by-side matrix, j < 256, is w2(j, c): the column lies in the first piece, which is w2
    transposed. -/
theorem packO_colL (w2 g2 : S256x512.Idx → α) (c : Fin 512) (j : Fin 256) :
    packO w2 g2 (ix2 c (Cert.Spec.colL j)) = w2 (ix2 j c) := by
  unfold packO
  refine (concatenate_pair_apply_left (t := S512x512) (s₁ := S512x256) (s₂ := S512x256) (1 : Fin 2) _ _
    concatenates_S512x256_S512x256_S512x512_d1 (ix2 c (Cert.Spec.colL j)) rfl (ix2 c j) fun b => ?_).trans
    (transpose_ix2_apply w2 _ c j)
  match b with
  | ⟨0, _⟩ => rfl
  | ⟨1, _⟩ => rfl

/-- Entry (c, 256 + j) of the side-by-side matrix is g2(j, c): the column lies in the second piece, 256 columns
    in, which is g2 transposed. -/
theorem packO_colG (w2 g2 : S256x512.Idx → α) (c : Fin 512) (j : Fin 256) :
    packO w2 g2 (ix2 c (Cert.Spec.colG j)) = g2 (ix2 j c) := by
  unfold packO
  refine (concatenate_pair_apply_right (t := S512x512) (s₁ := S512x256) (s₂ := S512x256) (1 : Fin 2) _ _
    concatenates_S512x256_S512x256_S512x512_d1 (ix2 c (Cert.Spec.colG j)) rfl rfl (ix2 c j) (fun b => ?_) ?_).trans
    (transpose_ix2_apply g2 _ c j)
  · match b with
    | ⟨0, _⟩ => exact fun _ => rfl
    | ⟨1, _⟩ => exact fun h => absurd rfl h
  · show j.val + 256 = 256 + j.val
    omega

/-- Row j < 256 of the packed matrix is column j of w1. -/
theorem packW_rowL (w1 g1 : S512x256.Idx → α) (w2 g2 : S256x512.Idx → α) (j : Fin 256) (k : Fin 512) :
    packW w1 g1 w2 g2 (ix2 (Cert.Spec.rowL j) k) = w1 (ix2 k j) := by
  unfold packW
  refine (concatenate_apply_piece (t := S1024x512) (0 : Fin 2)
    [⟨S256x512, transpose S256x512 [1, 0] w1 transposes_S512x256_S256x512_1_0⟩,
     ⟨S256x512, transpose S256x512 [1, 0] g1 transposes_S512x256_S256x512_1_0⟩, ⟨S512x512, packO w2 g2⟩]
    concatenates_S256x512_S256x512_S512x512_S1024x512_d0
    (ix2 (Cert.Spec.rowL j) k) 0 (by show 0 < 3; omega) S256x512 _ rfl rfl 0 rfl (ix2 j k) (fun b => ?_) ?_).trans
    (transpose_ix2_apply w1 _ j k)
  · match b with
    | ⟨0, _⟩ => exact fun h => absurd rfl h
    | ⟨1, _⟩ => exact fun _ => rfl
  · show 0 + j.val = j.val
    omega

/-- Row 256 + j of the packed matrix is column j of g1. -/
theorem packW_rowG (w1 g1 : S512x256.Idx → α) (w2 g2 : S256x512.Idx → α) (j : Fin 256) (k : Fin 512) :
    packW w1 g1 w2 g2 (ix2 (Cert.Spec.rowG j) k) = g1 (ix2 k j) := by
  unfold packW
  refine (concatenate_apply_piece (t := S1024x512) (0 : Fin 2)
    [⟨S256x512, transpose S256x512 [1, 0] w1 transposes_S512x256_S256x512_1_0⟩,
     ⟨S256x512, transpose S256x512 [1, 0] g1 transposes_S512x256_S256x512_1_0⟩, ⟨S512x512, packO w2 g2⟩]
    concatenates_S256x512_S256x512_S512x512_S1024x512_d0
    (ix2 (Cert.Spec.rowG j) k) 1 (by show 1 < 3; omega) S256x512 _ rfl rfl 256 rfl (ix2 j k) (fun b => ?_) ?_).trans
    (transpose_ix2_apply g1 _ j k)
  · match b with
    | ⟨0, _⟩ => exact fun h => absurd rfl h
    | ⟨1, _⟩ => exact fun _ => rfl
  · show 256 + j.val = 256 + j.val
    rfl

/-- Row 512 + c of the packed matrix is row c of the side-by-side second layers. -/
theorem packW_rowO (w1 g1 : S512x256.Idx → α) (w2 g2 : S256x512.Idx → α) (c : Fin 512) (k : Fin 512) :
    packW w1 g1 w2 g2 (ix2 (Cert.Spec.rowO c) k) = packO w2 g2 (ix2 c k) := by
  unfold packW
  refine concatenate_apply_piece (t := S1024x512) (0 : Fin 2)
    [⟨S256x512, transpose S256x512 [1, 0] w1 transposes_S512x256_S256x512_1_0⟩,
     ⟨S256x512, transpose S256x512 [1, 0] g1 transposes_S512x256_S256x512_1_0⟩, ⟨S512x512, packO w2 g2⟩]
    concatenates_S256x512_S256x512_S512x512_S1024x512_d0
    (ix2 (Cert.Spec.rowO c) k) 2 (by show 2 < 3; omega) S512x512 _ rfl rfl 512 rfl (ix2 c k) (fun b => ?_) ?_
  · match b with
    | ⟨0, _⟩ => exact fun h => absurd rfl h
    | ⟨1, _⟩ => exact fun _ => rfl
  · show 512 + c.val = 512 + c.val
    rfl

/-- Row 512 + c, column j < 256: w2(j, c). -/
theorem packW_rowO_colL (w1 g1 : S512x256.Idx → α) (w2 g2 : S256x512.Idx → α) (c : Fin 512) (j : Fin 256) :
    packW w1 g1 w2 g2 (ix2 (Cert.Spec.rowO c) (Cert.Spec.colL j)) = w2 (ix2 j c) :=
  (packW_rowO w1 g1 w2 g2 c _).trans (packO_colL w2 g2 c j)

/-- Row 512 + c, column 256 + j: g2(j, c). -/
theorem packW_rowO_colG (w1 g1 : S512x256.Idx → α) (w2 g2 : S256x512.Idx → α) (c : Fin 512) (j : Fin 256) :
    packW w1 g1 w2 g2 (ix2 (Cert.Spec.rowO c) (Cert.Spec.colG j)) = g2 (ix2 j c) :=
  (packW_rowO w1 g1 w2 g2 c _).trans (packO_colG w2 g2 c j)

/-! ## The packed column -/

/-- The packed bias vector: the first piece, the second piece and a third piece of length 512, end to end. -/
def packV (b1 gb1 : S256.Idx → α) (bo : S512.Idx → α) : S1024.Idx → α :=
  concatenate S1024 0 [⟨S256, b1⟩, ⟨S256, gb1⟩, ⟨S512, bo⟩] concatenates_S256_S256_S512_S1024_d0

/-- The packed bias column: the packed vector read as [1024, 1]. -/
def packB (b1 gb1 : S256.Idx → α) (bo : S512.Idx → α) : S1024x1.Idx → α :=
  shapeCast S1024x1 (packV b1 gb1 bo) shapeCasts_S1024_S1024x1

/-- Row r of the column is entry r of the vector. -/
theorem packB_apply (b1 gb1 : S256.Idx → α) (bo : S512.Idx → α) (r : Fin 1024) (u : Fin 1) :
    packB b1 gb1 bo (ix2 r u) = packV b1 gb1 bo (ix1 r) :=
  Cert.LibColumn.shapeCast_a_a1_apply _ shapeCasts_S1024_S1024x1 r u

/-- Entry j < 256 of the packed vector is b1(j). -/
theorem packV_rowL (b1 gb1 : S256.Idx → α) (bo : S512.Idx → α) (j : Fin 256) :
    packV b1 gb1 bo (ix1 (Cert.Spec.rowL j)) = b1 (ix1 j) := by
  unfold packV
  refine concatenate_apply_piece (t := S1024) (0 : Fin 1) [⟨S256, b1⟩, ⟨S256, gb1⟩, ⟨S512, bo⟩]
    concatenates_S256_S256_S512_S1024_d0
    (ix1 (Cert.Spec.rowL j)) 0 (by show 0 < 3; omega) S256 _ rfl rfl 0 rfl (ix1 j) (fun b => ?_) ?_
  · match b with
    | ⟨0, _⟩ => exact fun h => absurd rfl h
  · show 0 + j.val = j.val
    omega

/-- Entry 256 + j of the packed vector is gb1(j). -/
theorem packV_rowG (b1 gb1 : S256.Idx → α) (bo : S512.Idx → α) (j : Fin 256) :
    packV b1 gb1 bo (ix1 (Cert.Spec.rowG j)) = gb1 (ix1 j) := by
  unfold packV
  refine concatenate_apply_piece (t := S1024) (0 : Fin 1) [⟨S256, b1⟩, ⟨S256, gb1⟩, ⟨S512, bo⟩]
    concatenates_S256_S256_S512_S1024_d0
    (ix1 (Cert.Spec.rowG j)) 1 (by show 1 < 3; omega) S256 _ rfl rfl 256 rfl (ix1 j) (fun b => ?_) ?_
  · match b with
    | ⟨0, _⟩ => exact fun h => absurd rfl h
  · show 256 + j.val = 256 + j.val
    rfl

/-- Entry 512 + c of the packed vector is the third piece at c. -/
theorem packV_rowO (b1 gb1 : S256.Idx → α) (bo : S512.Idx → α) (c : Fin 512) :
    packV b1 gb1 bo (ix1 (Cert.Spec.rowO c)) = bo (ix1 c) := by
  unfold packV
  refine concatenate_apply_piece (t := S1024) (0 : Fin 1) [⟨S256, b1⟩, ⟨S256, gb1⟩, ⟨S512, bo⟩]
    concatenates_S256_S256_S512_S1024_d0
    (ix1 (Cert.Spec.rowO c)) 2 (by show 2 < 3; omega) S512 _ rfl rfl 512 rfl (ix1 c) (fun b => ?_) ?_
  · match b with
    | ⟨0, _⟩ => exact fun h => absurd rfl h
  · show 512 + c.val = 512 + c.val
    rfl

end Cert.KernelIdeal.ArrValue

end
-- ==== Proof.KArrHostTerm.lean ====
/-
  The arrays the region finds, as the packing operations applied to the argument arrays.

  Before the region the program reshapes the input [16, 512, 32, 64] to [16, 512, 2048], transposes the four
  weight arrays and lays them into one matrix [1024, 512], adds the two output biases and lays the three bias
  vectors into one column [1024, 1]. None of these operations writes an argument array, and each intermediate
  array is written once, so what the region finds in the reshaped input, in the matrix and in the column is the
  composition of the operations that lead to it, applied to the argument arrays as they were at the launch.
-/
import proofs.«129053_g2000003555652995_pallasbulk_24_34_alg».proof.Proof.KDefsIdeal
import proofs.«129053_g2000003555652995_pallasbulk_24_34_alg».proof.Proof.LibNary3
import proofs.«129053_g2000003555652995_pallasbulk_24_34_alg».proof.Proof.KArrHostPack
import Idealize.ShloMosaic.Lib.StableHlo.Run

noncomputable section

namespace Cert.KernelIdeal.ArrValue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand

variable (m : (ℓ : Loc nD τ sig) → Buf (Elt Ideal) ℓ) (c : Dev nD)

/-- Walks a line of operations from its last one back: at the array an operation writes, its function applied to
    what its operands held before it (for an operation over three operands, the three contents one by one); at any
    other array, what was there before the operation. -/
macro "host_results" : tactic =>
  `(tactic| (simp only [after_cons, after_nil]
             repeat (first
               | rw [unary_result] | rw [binary_result] | rw [reshape_result] | rw [Cert.LibNary3.nary3_result]
               | (rw [unary_result_ne]; rotate_left; decide)
               | (rw [binary_result_ne]; rotate_left; decide)
               | (rw [reshape_result_ne]; rotate_left; decide)
               | (rw [nary_result_ne]; rotate_left; decide))))

/-- The reshaped input is the input [16, 512, 32, 64] read as [16, 512, 2048]. -/
theorem V_v0 : (V m c main_v0 : S16x512x2048.Idx → EReal)
    = shapeCast S16x512x2048 (m ((c : Thread nD τ).loc main_arg0)) shapeCasts_S16x512x32x64_S16x512x2048 := by
  dsimp only [Hand.V, Hand.V0]
  simp only [hostOps0, List.flatten_cons, List.flatten_nil, List.append_nil]
  host_results
  rfl

/-- The matrix the region finds is the packed matrix of the four weight arguments. -/
theorem V_v6_eq : (V m c main_v6 : S1024x512.Idx → EReal)
    = packW (m ((c : Thread nD τ).loc main_arg1)) (m ((c : Thread nD τ).loc main_arg5))
        (m ((c : Thread nD τ).loc main_arg3)) (m ((c : Thread nD τ).loc main_arg7)) := by
  dsimp only [Hand.V, Hand.V0]
  simp only [hostOps0, List.flatten_cons, List.flatten_nil, List.append_nil]
  host_results
  rfl

/-- The column the region finds is the packed column of the two first-layer biases and the sum of the two output
    biases. -/
theorem V_v9_eq : (V m c main_v9 : S1024x1.Idx → EReal)
    = packB (m ((c : Thread nD τ).loc main_arg2)) (m ((c : Thread nD τ).loc main_arg6))
        (addf (F := Ideal) (s := S512) (φ := .f32) (m ((c : Thread nD τ).loc main_arg4)) (m ((c : Thread nD τ).loc main_arg8))) := by
  dsimp only [Hand.V, Hand.V0]
  simp only [hostOps0, List.flatten_cons, List.flatten_nil, List.append_nil]
  host_results
  rfl

end Cert.KernelIdeal.ArrValue

end
-- ==== Proof.KArrHost.lean ====
/-
  The arrays the region finds, entry by entry, in terms of the argument arrays.

  The reshaped input is the input [16, 512, 32, 64] read as [16, 512, 2048]. In the matrix [1024, 512], row j < 256
  is column j of the local first-layer weight (argument 1), row 256 + j is column j of the global first-layer weight
  (argument 5), and row 512 + c holds row-wise the c-th columns of the two second-layer weights: of the local one
  (argument 3) in the columns j < 256 and of the global one (argument 7) in the columns 256 + j. In the column
  [1024, 1], row j < 256 is the local first-layer bias (argument 2) at j, row 256 + j the global first-layer bias
  (argument 6) at j, and row 512 + c the sum of the two output biases (arguments 4 and 8) at c.

  Each fact is the array as a composition of packing operations, read at the entry.
-/
import proofs.«129053_g2000003555652995_pallasbulk_24_34_alg».proof.Proof.KArrHostTerm
import Idealize.ShloMosaic.PureOps.Ideal.Laws

noncomputable section

namespace Cert.KernelIdeal.ArrValue

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ) (c : Dev nD)

/-- Row j < 256 of the matrix: the local first-layer weight's column j. -/
theorem V_v6_rowL (j : Fin 256) (k : Fin 512) :
    (V m c main_v6 : S1024x512.Idx → EReal) (ix2 (Cert.Spec.rowL j) k) = m ((c : Thread nD τ).loc main_arg1) (ix2 k j) := by
  rw [V_v6_eq]
  exact packW_rowL _ _ _ _ j k

/-- Row 256 + j of the matrix: the global first-layer weight's column j. -/
theorem V_v6_rowG (j : Fin 256) (k : Fin 512) :
    (V m c main_v6 : S1024x512.Idx → EReal) (ix2 (Cert.Spec.rowG j) k) = m ((c : Thread nD τ).loc main_arg5) (ix2 k j) := by
  rw [V_v6_eq]
  exact packW_rowG _ _ _ _ j k

/-- Row 512 + c', column j < 256: the local second-layer weight at (j, c'). -/
theorem V_v6_rowO_colL (c' : Fin 512) (j : Fin 256) :
    (V m c main_v6 : S1024x512.Idx → EReal) (ix2 (Cert.Spec.rowO c') (Cert.Spec.colL j)) = m ((c : Thread nD τ).loc main_arg3) (ix2 j c') := by
  rw [V_v6_eq]
  exact packW_rowO_colL _ _ _ _ c' j

/-- Row 512 + c', column 256 + j: the global second-layer weight at (j, c'). -/
theorem V_v6_rowO_colG (c' : Fin 512) (j : Fin 256) :
    (V m c main_v6 : S1024x512.Idx → EReal) (ix2 (Cert.Spec.rowO c') (Cert.Spec.colG j)) = m ((c : Thread nD τ).loc main_arg7) (ix2 j c') := by
  rw [V_v6_eq]
  exact packW_rowO_colG _ _ _ _ c' j

/-- Row j < 256 of the column: the local first-layer bias at j. -/
theorem V_v9_rowL (j : Fin 256) :
    (V m c main_v9 : S1024x1.Idx → EReal) (ix2 (Cert.Spec.rowL j) (0 : Fin 1)) = m ((c : Thread nD τ).loc main_arg2) (ix1 j) := by
  rw [V_v9_eq]
  exact (packB_apply _ _ _ _ _).trans (packV_rowL _ _ _ j)

/-- Row 256 + j of the column: the global first-layer bias at j. -/
theorem V_v9_rowG (j : Fin 256) :
    (V m c main_v9 : S1024x1.Idx → EReal) (ix2 (Cert.Spec.rowG j) (0 : Fin 1)) = m ((c : Thread nD τ).loc main_arg6) (ix1 j) := by
  rw [V_v9_eq]
  exact (packB_apply _ _ _ _ _).trans (packV_rowG _ _ _ j)

/-- Row 512 + c' of the column: the sum of the two output biases at c'. On the extended reals the entrywise
    float sum is the sum of the entries. -/
theorem V_v9_rowO (c' : Fin 512) :
    (V m c main_v9 : S1024x1.Idx → EReal) (ix2 (Cert.Spec.rowO c') (0 : Fin 1))
      = HAdd.hAdd (α := EReal) (β := EReal) (γ := EReal) (m ((c : Thread nD τ).loc main_arg4) (ix1 c')) (m ((c : Thread nD τ).loc main_arg8) (ix1 c')) := by
  rw [V_v9_eq]
  exact (packB_apply _ _ _ _ _).trans (packV_rowO _ _ _ c')

end Cert.KernelIdeal.ArrValue

end
-- ==== Proof.KArrGlue.lean ====
/-
  From the packed operands to the argument arrays: the first arrangement for one batch entry, written over the
  packed matrix and the packed column the region finds, is the first arrangement of the specification written over
  the eight parameter arrays.

  The gate over the packed operands reads the matrix in four places and the column in three: the rows j < 256 (local
  first layer) with the bias of row j, the rows 256 + j (global first layer) with the bias of row 256 + j, and the
  rows 512 + c in the columns j < 256 (local second layer) and 256 + j (global second layer) with the bias of row
  512 + c. Whenever a matrix W and a column B hold, in these places, the entries w1(k, j), g1(k, j), w2(j, c),
  g2(j, c), b1(j), gb1(j) and b2(c) + gb2(c), the two gates are the same expression term by term: every sum runs
  over the same index set with equal summands, so no sum is evaluated and no law of arithmetic is used. The matrix
  and the column the region finds are such a pair for the argument arrays.
-/
import proofs.«129053_g2000003555652995_pallasbulk_24_34_alg».proof.Proof.KArrHost

noncomputable section

open scoped BigOperators

namespace Cert.KernelIdeal.ArrValue

open Idealize.ShloMosaic Idealize.ShloMosaic.TcCoe Idealize.ShloMosaic.ValueIdx
open Idealize.SL Idealize.SL.Sem
open Cert.KernelIdeal Cert.KernelIdeal.Gen Cert.KernelIdeal.Hand
open Cert.Spec (SX SW SV SI SC rowL rowG rowO colL colG)

/-- The gate over any matrix W and column B that hold the parameters where the packing puts them, for batch entry n
    of X, is the first arrangement at (n, c, s). -/
theorem blockGate_of_rows (X : SX.Idx → EReal) (w1 : SW.Idx → EReal) (b1 : SI.Idx → EReal) (w2 : SV.Idx → EReal)
    (b2 : SC.Idx → EReal) (g1 : SW.Idx → EReal) (gb1 : SI.Idx → EReal) (g2 : SV.Idx → EReal) (gb2 : SC.Idx → EReal)
    (W : Fin 1024 → Fin 512 → EReal) (B : Fin 1024 → EReal)
    (hL : ∀ (j : Fin 256) (k : Fin 512), W (rowL j) k = w1 (ix2 k j))
    (hG : ∀ (j : Fin 256) (k : Fin 512), W (rowG j) k = g1 (ix2 k j))
    (hOL : ∀ (c : Fin 512) (j : Fin 256), W (rowO c) (colL j) = w2 (ix2 j c))
    (hOG : ∀ (c : Fin 512) (j : Fin 256), W (rowO c) (colG j) = g2 (ix2 j c))
    (bL : ∀ j : Fin 256, B (rowL j) = b1 (ix1 j)) (bG : ∀ j : Fin 256, B (rowG j) = gb1 (ix1 j))
    (bO : ∀ c : Fin 512, B (rowO c) = b2 (ix1 c) + gb2 (ix1 c))
    (n : Fin 16) (c : Fin 512) (s : Fin 2048) :
    Cert.Spec.blockGate (fun c s => X (ix3 n c s)) W B c s = Cert.Spec.gateKat X w1 b1 w2 b2 g1 gb1 g2 gb2 n c s := by
  unfold Cert.Spec.blockGate Cert.Spec.gateKat Cert.Spec.loc Cert.Spec.hid Cert.Spec.xgK Cert.Spec.hgK Cert.Spec.meanK
  simp only [hL, hG, hOL, hOG, bL, bG, bO]

variable (m : (ℓ : Loc nD τ sig) → Buf (Elt Ideal) ℓ) (c : Dev nD)

/-- For the reshaped input and the matrix and column the region finds: the gate over the packed operands for batch
    entry n is the first arrangement over the eight argument arrays at (n, c', s). -/
theorem blockGate_eq (n : Fin 16) (c' : Fin 512) (s : Fin 2048) :
    Cert.Spec.blockGate
        (fun c₁ s₁ => shapeCast S16x512x2048 (m ((c : Thread nD τ).loc main_arg0)) shapeCasts_S16x512x32x64_S16x512x2048 (ix3 n c₁ s₁))
        (fun r k => (V m c main_v6 : S1024x512.Idx → EReal) (ix2 r k))
        (fun r => (V m c main_v9 : S1024x1.Idx → EReal) (ix2 r (0 : Fin 1))) c' s
      = Cert.Spec.gateKat (shapeCast S16x512x2048 (m ((c : Thread nD τ).loc main_arg0)) shapeCasts_S16x512x32x64_S16x512x2048)
          (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) n c' s :=
  blockGate_of_rows _ _ _ _ _ _ _ _ _ _ _
    (fun j k => V_v6_rowL m c j k) (fun j k => V_v6_rowG m c j k)
    (fun c₁ j => V_v6_rowO_colL m c c₁ j) (fun c₁ j => V_v6_rowO_colG m c c₁ j)
    (fun j => V_v9_rowL m c j) (fun j => V_v9_rowG m c j) (fun c₁ => V_v9_rowO m c c₁) n c' s

end Cert.KernelIdeal.ArrValue

end
-- ==== Proof.KRunIdeal.lean ====
/-
  The value of the packed kernel: after every weakly fair execution of @main the result buffer holds the first
  arrangement of the gated channel attention of the argument arrays, reshaped to the input's four axes.

  The body leaves in the output block, entry by entry, the packed arrangement of the input block's entry (the two
  stores tile the block). At grid point t the input block holds batch entries 2t and 2t + 1 of the reshaped input
  and the packed operands are the packed parameter arrays, so what point t writes back is block t of the first
  arrangement of the arguments. The eight blocks cover the output array, so the array ends at that function; the
  reshape after the region reads it.
-/
import proofs.«129053_g2000003555652995_pallasbulk_24_34_alg».proof.Proof.KBlocksIdeal
import proofs.«129053_g2000003555652995_pallasbulk_24_34_alg».proof.Proof.Spec
import proofs.«129053_g2000003555652995_pallasbulk_24_34_alg».proof.Proof.KPay
import proofs.«129053_g2000003555652995_pallasbulk_24_34_alg».proof.Proof.KArrGlue
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The input read as batch × channel × position. -/
def Xin (c : Dev nD) : S16x512x2048.Idx → EReal :=
  shapeCast S16x512x2048 (m ((c : Thread nD τ).loc main_arg0)) shapeCasts_S16x512x32x64_S16x512x2048

/-- The first arrangement of the gated channel attention, of the argument arrays on core c. -/
def kerG (c : Dev nD) : S16x512x2048.Idx → EReal :=
  Cert.Spec.gateK (Xin m c) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## The output block after the body, entry by entry -/

/-- Entry b of the block the body leaves is the packed arrangement applied to entry b of the input block: the two
    stores tile the block, the one through `rA` holding entry 0 and the one through `rB` entry 1. -/
theorem out_apply (x0 : Vec Ideal S2x512x2048 .f32) (x1 : Vec Ideal S1024x512 .f32) (x2 : Vec Ideal S1024x1 .f32)
    (y : S2x512x2048.Idx) :
    out0_3 x0 x1 x2 y = Cert.Spec.blockGate (fun c s => x0 (ix3 (y 0) c s)) (fun r k => x1 (ix2 r k))
      (fun r => x2 (ix2 r (0 : Fin 1))) (y 1) (y 2) := by
  unfold out0_3
  refine View.canon_apply_of_pieces (Val := Elt Ideal) (fun y => Cert.Spec.blockGate (fun c s => x0 (ix3 (y 0) c s)) (fun r k => x1 (ix2 r k))
      (fun r => x2 (ix2 r (0 : Fin 1))) (y 1) (y 2)) _ ?_ y (cover0_3 _ _ y)
  intro p hp x
  simp only [List.mem_cons, List.mem_nil_iff, or_false] at hp
  rcases hp with rfl | rfl
  · obtain ⟨u, c', s, rfl⟩ : ∃ (u : Fin 1) (c' : Fin 512) (s : Fin 2048), x = ix3 u c' s := ⟨x 0, x 1, x 2, eq_ix3 x⟩
    obtain rfl : u = 0 := Subsingleton.elim _ _
    have e0 : (rB.emb (ix3 (0 : Fin 1) c' s)) 0 = (1 : Fin 2) := Fin.ext (by
      simp only [Rect.emb_apply, Rect.off_unit, Rect.stride_unit]; rfl)
    have e1 : (rB.emb (ix3 (0 : Fin 1) c' s)) 1 = c' := Fin.ext (by
      simp only [Rect.emb_apply, Rect.off_unit, Rect.stride_unit]; show 0 + 1 * c'.val = c'.val; omega)
    have e2 : (rB.emb (ix3 (0 : Fin 1) c' s)) 2 = s := Fin.ext (by
      simp only [Rect.emb_apply, Rect.off_unit, Rect.stride_unit]; show 0 + 1 * s.val = s.val; omega)
    show payB x0 x1 x2 (ix3 (0 : Fin 1) c' s) = _
    rw [e0, e1, e2]
    exact Cert.KernelIdeal.PayValue.payB_apply x0 x1 x2 c' s
  · obtain ⟨u, c', s, rfl⟩ : ∃ (u : Fin 1) (c' : Fin 512) (s : Fin 2048), x = ix3 u c' s := ⟨x 0, x 1, x 2, eq_ix3 x⟩
    obtain rfl : u = 0 := Subsingleton.elim _ _
    have e0 : (rA.emb (ix3 (0 : Fin 1) c' s)) 0 = (0 : Fin 2) := Fin.ext (by
      simp only [Rect.emb_apply, Rect.off_unit, Rect.stride_unit]; rfl)
    have e1 : (rA.emb (ix3 (0 : Fin 1) c' s)) 1 = c' := Fin.ext (by
      simp only [Rect.emb_apply, Rect.off_unit, Rect.stride_unit]; show 0 + 1 * c'.val = c'.val; omega)
    have e2 : (rA.emb (ix3 (0 : Fin 1) c' s)) 2 = s := Fin.ext (by
      simp only [Rect.emb_apply, Rect.off_unit, Rect.stride_unit]; show 0 + 1 * s.val = s.val; omega)
    show payA x0 x1 x2 (ix3 (0 : Fin 1) c' s) = _
    rw [e0, e1, e2]
    exact Cert.KernelIdeal.PayValue.payA_apply x0 x1 x2 c' s

/-! ## From the blocks to the array -/

/-- What grid point t writes back is block t of the first arrangement of the argument arrays: entry b of the block
    is batch entry 2t + b, whose input slab is the argument's and whose packed operands are the packed arguments. -/
theorem flushed_eq (c : Dev nD) (t : Fin cfg0.N) :
    (dats m 0 c).flushed 3 t = ((cfg0.win 3).blk t).view.read (Elt Ideal) (kerG m c) := by
  show (cfg0.win 3).cut (grid0.coords t) ((dats m 0 c).after 3 t) = _
  rw [after0_3]
  funext j
  have ht : t.val < 8 := by have h1 := t.isLt; have h8 : cfg0.N = 8 := N_0; omega
  obtain ⟨-, -, -, -, -, -, -, e0, e1, e2⟩ := idx_facts t
  have hb : (j 0).val < 2 := (j 0).isLt
  have hemb : ((cfg0.win 3).blk t).view.emb j = ix3 (⟨2 * t.val + (j 0).val, by omega⟩ : Fin 16) (j 1) (j 2) := by
    funext a
    apply Fin.ext
    match a with
    | ⟨0, _⟩ => show win0_3.index t 0 * 2 + 1 * (j 0).val = 2 * t.val + (j 0).val; rw [e0]; omega
    | ⟨1, _⟩ => show win0_3.index t 1 * 512 + 1 * (j 1).val = (j 1).val; rw [e1]; omega
    | ⟨2, _⟩ => show win0_3.index t 2 * 2048 + 1 * (j 2).val = (j 2).val; rw [e2]; omega
  rw [View.read_apply, hemb]
  refine (out_apply (iblk m c 0 t) (iblk m c 1 t) (iblk m c 2 t) j).trans ?_
  have h0 : (fun (c' : Fin 512) (s : Fin 2048) => (iblk m c 0 t : Vec Ideal S2x512x2048 .f32) (ix3 (j 0) c' s))
      = fun c' s => Xin m c (ix3 (⟨2 * t.val + (j 0).val, by omega⟩ : Fin 16) c' s) := by
    funext c' s
    rw [iblk0_apply m c t (ix3 (j 0) c' s) (ix3 (⟨2 * t.val + (j 0).val, by omega⟩ : Fin 16) c' s) rfl rfl rfl]
    exact congrFun (Cert.KernelIdeal.ArrValue.V_v0 m c) _
  have h1 : (fun (r : Fin 1024) (k : Fin 512) => (iblk m c 1 t : Vec Ideal S1024x512 .f32) (ix2 r k))
      = fun r k => (V m c main_v6 : S1024x512.Idx → EReal) (ix2 r k) := by
    funext r k; exact iblk1_apply m c t (ix2 r k)
  have h2 : (fun (r : Fin 1024) => (iblk m c 2 t : Vec Ideal S1024x1 .f32) (ix2 r (0 : Fin 1)))
      = fun r => (V m c main_v9 : S1024x1.Idx → EReal) (ix2 r (0 : Fin 1)) := by
    funext r; exact iblk2_apply m c t (ix2 r (0 : Fin 1))
  rw [h0, h1, h2]
  exact Cert.KernelIdeal.ArrValue.blockGate_eq m c _ (j 1) (j 2)

/-- Every index of the output array lies in the block of the point that holds its batch entry: point ⌊n / 2⌋. -/
theorem covered (c : Dev nD) (i : S16x512x2048.Idx) :
    ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 2048 := (i 2).isLt
  let t : Fin cfg0.N := ⟨(i 0).val / 2, by rw [show cfg0.N = 8 from N_0]; omega⟩
  obtain ⟨-, -, -, -, -, -, -, e0, e1, e2⟩ := idx_facts t
  refine ⟨t, flush0_3 t, ?_⟩
  show i ∈ ((View.whole main_v10).slice (win0_3.rect t)).set
  rw [View.set_slice_whole, Rect.mem_set_unit]
  intro a
  match a with
  | ⟨0, _⟩ => show win0_3.index t 0 * 2 ≤ (i 0).val ∧ (i 0).val < win0_3.index t 0 * 2 + 2
              rw [e0]; show (i 0).val / 2 * 2 ≤ (i 0).val ∧ (i 0).val < (i 0).val / 2 * 2 + 2; omega
  | ⟨1, _⟩ => show win0_3.index t 1 * 512 ≤ (i 1).val ∧ (i 1).val < win0_3.index t 1 * 512 + 512
              rw [e1]; omega
  | ⟨2, _⟩ => show win0_3.index t 2 * 2048 ≤ (i 2).val ∧ (i 2).val < win0_3.index t 2 * 2048 + 2048
              rw [e2]; omega

/-- So the output array ends holding the first arrangement of the argument arrays. -/
theorem final (c : Dev nD) : (dats m 0 c).arrAt 3 cfg0.N = kerG m c :=
  (dats m 0 c).arrAt_eq_of_cover 3 (kerG m c) (fun t _ => flushed_eq m c t) (covered c)

/-! ## The run, read -/

/-- The reshape after the region reads the output array: the result buffer ends at the first arrangement reshaped
    to the input's four axes. -/
theorem tail_v11 (c : Dev nD) :
    Pipeline.afterTail₀ cfgs (dats m) 0 (V0 m) [hostOps1] c main_v11
      = shapeCast S16x512x32x64 (kerG m c) shapeCasts_S16x512x2048_S16x512x32x64 := by
  unfold Pipeline.afterTail₀
  show StableHlo.after hostOps1 _ (Proc.devRef .tc main_v11) = _
  after_results
  exact congrArg (fun a => shapeCast S16x512x32x64 a shapeCasts_S16x512x2048_S16x512x32x64)
    ((Pipeline.withArrays_arr spec0 launch0.win.arr_inj c _ _ 3).trans (final m c))

/-- Every weakly fair execution of @main terminates; the result is the first arrangement of the argument arrays,
    reshaped, and the argument arrays are unchanged. -/
theorem run : θ_run defs (onTc (τ := τ) (main (F := Ideal))) ⟨m, fun _ => 0, ρ⟩ (fun r => ∀ c : Dev nD,
      r.2.mem ((c.tc : Thread nD τ).loc main_v11) = shapeCast S16x512x32x64 (kerG m c) shapeCasts_S16x512x2048_S16x512x32x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v11 (Pipeline.mem_restRefs_of main_v11 (by decide) (by decide))).trans (tail_v11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Hand

end
-- ==== Proof.Bridge.lean ====
/-
  The two arrangements of the gated channel attention are one function on the extended reals.

  Four facts join them, none of which needs the inputs to be finite:
  * the float word 2^-11 denotes 1/2048 and the word 2048.0 denotes 2048, and on the extended reals a quotient by a
    nonzero real is the product with its reciprocal, so the two means agree;
  * multiplication of extended reals is commutative, so the two orders of the factors in the global branch agree;
  * addition of extended reals is commutative and associative, so the output biases may be added to either branch;
  * for every extended real z, 1/2 + 1/2 · tanh(z · 1/2) is the logistic function of z: at a real z with
    u = e^(z/2) both are u² / (u² + 1), at +∞ both are 1 and at −∞ both are 0.
-/
import proofs.«129053_g2000003555652995_pallasbulk_24_34_alg».proof.Proof.Spec
import Mathlib.Analysis.SpecialFunctions.Trigonometric.DerivHyp

noncomputable section

open scoped BigOperators

namespace Cert.Spec

open Idealize.ShloMosaic Idealize.ShloMosaic.ValueIdx

/-! ## The four words -/

theorem zeroW_eq : zeroW = 0 := by
  simp [zeroW, Ideal.ofBits, Ideal.ieee]

theorem halfW_eq : halfW = (((1 / 2 : ℝ)) : EReal) := by
  simp [halfW, Ideal.ofBits, Ideal.ieee, -EReal.coe_mul]; norm_num

theorem invW_eq : invW = (((1 / 2048 : ℝ)) : EReal) := by
  simp [invW, Ideal.ofBits, Ideal.ieee, -EReal.coe_mul]; norm_num

theorem cntW_eq : cntW = ((2048 : ℝ) : EReal) := by
  simp [cntW, Ideal.ofBits, Ideal.ieee, -EReal.coe_mul]; norm_num

/-! ## The gate -/

/-- On the reals: 1/2 + 1/2 · tanh(r/2) = 1 / (1 + e^(-r)). With u = e^(r/2): tanh(r/2) = (u − 1/u) / (u + 1/u) and
    e^(-r) = 1/u², so both sides are u² / (u² + 1). -/
theorem half_tanh_real (r : ℝ) : 1 / 2 + 1 / 2 * Real.tanh (r * (1 / 2)) = (1 + Real.exp (-r))⁻¹ := by
  have hu : 0 < Real.exp (r * (1 / 2)) := Real.exp_pos _
  have hn : Real.exp (-(r * (1 / 2))) = (Real.exp (r * (1 / 2)))⁻¹ := Real.exp_neg _
  have hr : Real.exp (-r) = (Real.exp (r * (1 / 2)))⁻¹ * (Real.exp (r * (1 / 2)))⁻¹ := by
    rw [← hn, ← Real.exp_add]; congr 1; ring
  rw [Real.tanh_eq_sinh_div_cosh, Real.sinh_eq, Real.cosh_eq, hn, hr]
  generalize Real.exp (r * (1 / 2)) = u at hu
  have hu' : u ≠ 0 := ne_of_gt hu
  field_simp
  ring

/-- The gate through tanh is the logistic function, at every extended real. -/
theorem half_tanh_eq_logistic (z : EReal) : halfW + halfW * Ideal.tanh (z * halfW) = Ideal.logistic z := by
  rw [halfW_eq]
  induction z using EReal.rec with
  | bot =>
    rw [EReal.bot_mul_coe_of_pos (by norm_num : (0 : ℝ) < 1 / 2), Ideal.tanh_bot, Ideal.logistic_bot]
    rw [show (-1 : EReal) = ((-1 : ℝ) : EReal) by norm_num, ← EReal.coe_mul, ← EReal.coe_add]
    norm_num
  | coe r =>
    rw [← EReal.coe_mul, Ideal.tanh_coe, ← EReal.coe_mul, ← EReal.coe_add, Ideal.logistic_coe, half_tanh_real]
  | top =>
    rw [EReal.top_mul_coe_of_pos (by norm_num : (0 : ℝ) < 1 / 2), Ideal.tanh_top, Ideal.logistic_top]
    rw [show (1 : EReal) = ((1 : ℝ) : EReal) by norm_num, ← EReal.coe_mul, ← EReal.coe_add]
    norm_num

/-! ## The two arrangements agree -/

variable (X : SX.Idx → EReal) (w1 : SW.Idx → EReal) (b1 : SI.Idx → EReal) (w2 : SV.Idx → EReal) (b2 : SC.Idx → EReal)
  (g1 : SW.Idx → EReal) (gb1 : SI.Idx → EReal) (g2 : SV.Idx → EReal) (gb2 : SC.Idx → EReal)

/-- The sum times 2^-11 is the sum from 0 divided by 2048. -/
theorem meanK_eq_meanR (n : Fin 16) (c : Fin 512) : meanK X n c = meanR X n c := by
  unfold meanK meanR
  rw [zeroW_eq, zero_add, cntW_eq, Ideal.div_coe (by norm_num : (2048 : ℝ) ≠ 0), invW_eq]

/-- The hidden layer of the global branch: the factors of each product in either order. -/
theorem hgK_eq_hgR (n : Fin 16) (j : Fin 256) : hgK X g1 gb1 n j = hgR X g1 gb1 n j := by
  unfold hgK hgR
  congr 2
  exact Finset.sum_congr rfl fun c _ => by rw [meanK_eq_meanR, mul_comm]

/-- The global branch: the second arrangement's is the first's plus its output bias. -/
theorem xgR_eq (n : Fin 16) (c : Fin 512) : xgR X g1 gb1 g2 gb2 n c = xgK X g1 gb1 g2 n c + gb2 (ix1 c) := by
  unfold xgK xgR
  congr 1
  exact Finset.sum_congr rfl fun j _ => by rw [hgK_eq_hgR, mul_comm]

/-- At every (n, c, s) the two arrangements give the same extended real. -/
theorem gateKat_eq_gateRat (n : Fin 16) (c : Fin 512) (s : Fin 2048) :
    gateKat X w1 b1 w2 b2 g1 gb1 g2 gb2 n c s = gateRat X w1 b1 w2 b2 g1 gb1 g2 gb2 n c s := by
  unfold gateKat gateRat
  rw [half_tanh_eq_logistic, xgR_eq]
  congr 2
  rw [add_add_add_comm, add_assoc]

/-- So they are the same array. -/
theorem gateK_eq_gateR : gateK X w1 b1 w2 b2 g1 gb1 g2 gb2 = gateR X w1 b1 w2 b2 g1 gb1 g2 gb2 :=
  funext fun i => gateKat_eq_gateRat X w1 b1 w2 b2 g1 gb1 g2 gb2 (i 0) (i 1) (i 2)

end Cert.Spec

end
-- ==== Proof.RefVBlk.lean ====
/-
  The blocks of the tiled local kernel at a grid point, read at an index, and the cover of its output array.

  The grid is 16 × 2: point t stands for batch entry n = t / 2 and half h = t % 2 of the 2048 positions. The
  global branch [16, 512, 1] is read one batch entry at a time: entry (u, c, v) of its block at point t is the
  array at (n, c, v). The input [16, 512, 2048] is read in blocks [1, 512, 1024]: entry (u, c, s) of its block at
  point t is the input at (n, c, 1024 · h + s). The two weights and the two bias columns are single blocks that
  cover their arrays, so at every point the block is the array. The output [16, 512, 2048] is written in the same
  blocks as the input is read, every point writes its block back, and the index (n, c, p) of the output lies in
  the block of the point 2 · n + p / 1024: the blocks cover the output.
-/
import proofs.«129053_g2000003555652995_pallasbulk_24_34_alg».proof.Proof.Gen.ReferenceIdeal.Frame
import Idealize.ShloMosaic.Lib.ValueIdx
import Idealize.ShloMosaic.Lib.Pipeline.Value

set_option maxRecDepth 16384

noncomputable section

namespace Cert.ReferenceIdeal.RefValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable {F : FTy → Type} [FloatOps F]

variable (m : (ℓ : Loc nD τ sig) → Buf (Elt F) ℓ)

/-- The block indices over the grid: the global branch moves with the batch entry, the input and the output with
    the batch entry and the half of the positions, the four parameter arrays stay at block 0. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = t.val % 2
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 2 ∧ win0_6.index t (1 : Fin 3) = 0 ∧ win0_6.index t (2 : Fin 3) = t.val % 2 :=
  (by decide +kernel : ∀ t : Fin grid0.N, _)

/-- The global branch's block at point t is batch entry t / 2 of the global branch. -/
theorem iblk0_apply (c : Dev nD) (t : Fin cfg0.N) (x : S1x512x1.Idx) (k : S16x512x1.Idx)
    (hk0 : (k 0).val = t.val / 2 + (x 0).val) (hk1 : (k 1).val = (x 1).val) (hk2 : (k 2).val = (x 2).val) :
    (iblk m c 0 t : Vec F S1x512x1 .f32) x = (V m c main_v22 : S16x512x1.Idx → Elt F .f32) k := by
  obtain ⟨e0, e1, e2, -⟩ := idx_facts t
  unfold iblk
  rw [View.read_apply]
  show V m c main_v22 _ = V m c main_v22 _
  congr 1
  funext a
  apply Fin.ext
  match a with
  | ⟨0, _⟩ => show win0_0.index t 0 * 1 + 1 * (x 0).val = (k 0).val; rw [e0, hk0]; omega
  | ⟨1, _⟩ => show win0_0.index t 1 * 512 + 1 * (x 1).val = (k 1).val; rw [e1, hk1]; omega
  | ⟨2, _⟩ => show win0_0.index t 2 * 1 + 1 * (x 2).val = (k 2).val; rw [e2, hk2]; omega

/-- The input's block at point t is batch entry t / 2 of the input at the positions of half t % 2. -/
theorem iblk1_apply (c : Dev nD) (t : Fin cfg0.N) (x : S1x512x1024.Idx) (k : S16x512x2048.Idx)
    (hk0 : (k 0).val = t.val / 2 + (x 0).val) (hk1 : (k 1).val = (x 1).val)
    (hk2 : (k 2).val = 1024 * (t.val % 2) + (x 2).val) :
    (iblk m c 1 t : Vec F S1x512x1024 .f32) x = (V m c main_v0 : S16x512x2048.Idx → Elt F .f32) k := by
  obtain ⟨-, -, -, e0, e1, e2, -⟩ := idx_facts t
  unfold iblk
  rw [View.read_apply]
  show V m c main_v0 _ = V m c main_v0 _
  congr 1
  funext a
  apply Fin.ext
  match a with
  | ⟨0, _⟩ => show win0_1.index t 0 * 1 + 1 * (x 0).val = (k 0).val; rw [e0, hk0]; omega
  | ⟨1, _⟩ => show win0_1.index t 1 * 512 + 1 * (x 1).val = (k 1).val; rw [e1, hk1]; omega
  | ⟨2, _⟩ => show win0_1.index t 2 * 1024 + 1 * (x 2).val = (k 2).val; rw [e2, hk2]; omega

/-- The first weight's block is the first weight. -/
theorem iblk2_apply (c : Dev nD) (t : Fin cfg0.N) (x : S256x512.Idx) :
    (iblk m c 2 t : Vec F S256x512 .f32) x = (V m c main_v1 : S256x512.Idx → Elt F .f32) x := by
  obtain ⟨-, -, -, -, -, -, e0, e1, -⟩ := idx_facts t
  unfold iblk
  rw [View.read_apply]
  show V m c main_v1 _ = V m c main_v1 _
  congr 1
  funext a
  apply Fin.ext
  match a with
  | ⟨0, _⟩ => show win0_2.index t 0 * 256 + 1 * (x 0).val = (x 0).val; rw [e0]; omega
  | ⟨1, _⟩ => show win0_2.index t 1 * 512 + 1 * (x 1).val = (x 1).val; rw [e1]; omega

/-- The first bias column's block is the first bias column. -/
theorem iblk3_apply (c : Dev nD) (t : Fin cfg0.N) (x : S256x1.Idx) :
    (iblk m c 3 t : Vec F S256x1 .f32) x = (V m c main_v2 : S256x1.Idx → Elt F .f32) x := by
  obtain ⟨-, -, -, -, -, -, -, -, e0, e1, -⟩ := idx_facts t
  unfold iblk
  rw [View.read_apply]
  show V m c main_v2 _ = V m c main_v2 _
  congr 1
  funext a
  apply Fin.ext
  match a with
  | ⟨0, _⟩ => show win0_3.index t 0 * 256 + 1 * (x 0).val = (x 0).val; rw [e0]; omega
  | ⟨1, _⟩ => show win0_3.index t 1 * 1 + 1 * (x 1).val = (x 1).val; rw [e1]; omega

/-- The second weight's block is the second weight. -/
theorem iblk4_apply (c : Dev nD) (t : Fin cfg0.N) (x : S512x256.Idx) :
    (iblk m c 4 t : Vec F S512x256 .f32) x = (V m c main_v3 : S512x256.Idx → Elt F .f32) x := by
  obtain ⟨-, -, -, -, -, -, -, -, -, -, e0, e1, -⟩ := idx_facts t
  unfold iblk
  rw [View.read_apply]
  show V m c main_v3 _ = V m c main_v3 _
  congr 1
  funext a
  apply Fin.ext
  match a with
  | ⟨0, _⟩ => show win0_4.index t 0 * 512 + 1 * (x 0).val = (x 0).val; rw [e0]; omega
  | ⟨1, _⟩ => show win0_4.index t 1 * 256 + 1 * (x 1).val = (x 1).val; rw [e1]; omega

/-- The second bias column's block is the second bias column. -/
theorem iblk5_apply (c : Dev nD) (t : Fin cfg0.N) (x : S512x1.Idx) :
    (iblk m c 5 t : Vec F S512x1 .f32) x = (V m c main_v4 : S512x1.Idx → Elt F .f32) x := by
  obtain ⟨-, -, -, -, -, -, -, -, -, -, -, -, e0, e1, -⟩ := idx_facts t
  unfold iblk
  rw [View.read_apply]
  show V m c main_v4 _ = V m c main_v4 _
  congr 1
  funext a
  apply Fin.ext
  match a with
  | ⟨0, _⟩ => show win0_5.index t 0 * 512 + 1 * (x 0).val = (x 0).val; rw [e0]; omega
  | ⟨1, _⟩ => show win0_5.index t 1 * 1 + 1 * (x 1).val = (x 1).val; rw [e1]; omega

/-- The batch entry of a block's element is inside the array: t < 32 and the block has one batch entry. -/
theorem blkBatch_lt (t : Fin cfg0.N) (j : S1x512x1024.Idx) : t.val / 2 + (j 0).val < 16 := by
  have ht : t.val < 32 := by have h := t.isLt; have hN : cfg0.N = 32 := N_0; omega
  have hj : (j 0).val < 1 := (j 0).isLt
  omega

/-- The position of a block's element is inside the array: the block has 1024 positions. -/
theorem blkPos_lt (t : Fin cfg0.N) (j : S1x512x1024.Idx) : 1024 * (t.val % 2) + (j 2).val < 2048 := by
  have hj : (j 2).val < 1024 := (j 2).isLt
  omega

/-- Where element j of the output block at point t sits in the output array. -/
theorem emb6 (t : Fin cfg0.N) (j : S1x512x1024.Idx) :
    ((cfg0.win 6).blk t).view.emb j
      = ix3 (⟨t.val / 2 + (j 0).val, blkBatch_lt t j⟩ : Fin 16) (j 1)
          (⟨1024 * (t.val % 2) + (j 2).val, blkPos_lt t j⟩ : Fin 2048) := by
  obtain ⟨-, -, -, -, -, -, -, -, -, -, -, -, -, -, e0, e1, e2⟩ := idx_facts t
  funext a
  apply Fin.ext
  match a with
  | ⟨0, _⟩ => show win0_6.index t 0 * 1 + 1 * (j 0).val = t.val / 2 + (j 0).val; rw [e0]; omega
  | ⟨1, _⟩ => show win0_6.index t 1 * 512 + 1 * (j 1).val = (j 1).val; rw [e1]; omega
  | ⟨2, _⟩ => show win0_6.index t 2 * 1024 + 1 * (j 2).val = 1024 * (t.val % 2) + (j 2).val; rw [e2]; omega

/-- Every index (n, c, p) of the output array lies in the block of the point 2 · n + p / 1024, which writes it back. -/
theorem covered (i : S16x512x2048.Idx) :
    ∃ t : Fin cfg0.N, (cfg0.win 6).flush t = true ∧ i ∈ ((cfg0.win 6).blk t).view.set := by
  have hi0 : (i 0).val < 16 := (i 0).isLt
  have hi1 : (i 1).val < 512 := (i 1).isLt
  have hi2 : (i 2).val < 2048 := (i 2).isLt
  let t : Fin cfg0.N := ⟨2 * (i 0).val + (i 2).val / 1024, by rw [show cfg0.N = 32 from N_0]; omega⟩
  obtain ⟨-, -, -, -, -, -, -, -, -, -, -, -, -, -, e0, e1, e2⟩ := idx_facts t
  refine ⟨t, flush0_6 t, ?_⟩
  show i ∈ ((View.whole main_v23).slice (win0_6.rect t)).set
  rw [View.set_slice_whole, Rect.mem_set_unit]
  intro a
  match a with
  | ⟨0, _⟩ => show win0_6.index t 0 * 1 ≤ (i 0).val ∧ (i 0).val < win0_6.index t 0 * 1 + 1
              rw [e0]
              show (2 * (i 0).val + (i 2).val / 1024) / 2 * 1 ≤ (i 0).val
                ∧ (i 0).val < (2 * (i 0).val + (i 2).val / 1024) / 2 * 1 + 1
              omega
  | ⟨1, _⟩ => show win0_6.index t 1 * 512 ≤ (i 1).val ∧ (i 1).val < win0_6.index t 1 * 512 + 512
              rw [e1]; omega
  | ⟨2, _⟩ => show win0_6.index t 2 * 1024 ≤ (i 2).val ∧ (i 2).val < win0_6.index t 2 * 1024 + 1024
              rw [e2]
              show (2 * (i 0).val + (i 2).val / 1024) % 2 * 1024 ≤ (i 2).val
                ∧ (i 2).val < (2 * (i 0).val + (i 2).val / 1024) % 2 * 1024 + 1024
              omega

end Cert.ReferenceIdeal.RefValue

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«129053_g2000003555652995_pallasbulk_24_34_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.RefVHost.lean ====
/-
  The arrays the reference's region finds when it is entered, as functions of the argument arrays.

  Before the region the host reshapes the input [16, 512, 32, 64] to X [16, 512, 2048] (the two position axes merged in
  row-major order), transposes the two local weights, makes the two local biases columns, and computes the global
  branch: the mean of X over the 2048 positions (the sum from the zero word, divided by the word 2048), a first layer
  mean · g1 + gb1 cut below at zero, a second layer · g2 + gb2, the result [16, 512] given a trailing unit axis. Read at
  (n, c, 0) that last array is the global branch of the second arrangement at batch n and channel c: the host's
  reduction is the initial value plus the sum over the reduced axis, its products are plain sums of products, a bias
  vector repeated along the batch axis reads the vector's entry of the column, a scalar repeated reads the scalar.
-/
import proofs.«129053_g2000003555652995_pallasbulk_24_34_alg».proof.Proof.Gen.ReferenceIdeal.Frame
import proofs.«129053_g2000003555652995_pallasbulk_24_34_alg».proof.Proof.Spec
import proofs.«129053_g2000003555652995_pallasbulk_24_34_alg».proof.Proof.LibPlainDot
import proofs.«129053_g2000003555652995_pallasbulk_24_34_alg».proof.Proof.LibColumn
import proofs.«129053_g2000003555652995_pallasbulk_24_34_alg».proof.Proof.LibVecColumn
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.StableHlo.Run

noncomputable section

open scoped BigOperators

namespace Cert.ReferenceIdeal.RefValue

open Idealize.ShloMosaic Idealize.ShloMosaic.ValueIdx Idealize.SL.Sem
open Cert.ReferenceIdeal Cert.ReferenceIdeal.Gen

/-- The mean of the input over its positions, as the host computes it: the sum from the zero word divided by the
    word 2048 repeated over [16, 512]. -/
def meanArr (X : FVec Ideal S16x512x2048 .f32) : FVec Ideal S16x512 .f32 :=
  Host.divf (F := Ideal)
    (Host.reduceAdd (F := Ideal) X (constant (F := Ideal) S_ .f32 0x00000000#32)
      Facts₀.reducesTo_S16x512x2048_S16x512_d2 Facts₀.h_S_)
    (broadcastInDim S16x512 ![] Facts₀.bcast_S_S16x512 (constant (F := Ideal) S_ .f32 0x45000000#32))

/-- The hidden layer of the global branch, as the host computes it. -/
def hgArr (X : FVec Ideal S16x512x2048 .f32) (g1 : FVec Ideal S512x256 .f32) (gb1 : FVec Ideal S256 .f32) :
    FVec Ideal S16x256 .f32 :=
  maximumf
    (addf (Host.dotGeneral (F := Ideal) dot_S16x512_S512x256_S16x256_1_0_0_1_n_n none (meanArr X) g1)
      (broadcastInDim S16x256 ![0, 1] Facts₀.bcast_S1x256_S16x256_0_1
        (broadcastInDim S1x256 ![1] Facts₀.bcast_S256_S1x256_1 gb1)))
    (broadcastInDim S16x256 ![] Facts₀.bcast_S_S16x256 (constant (F := Ideal) S_ .f32 0x00000000#32))

/-- The global branch as the host hands it to the region: [16, 512, 1]. -/
def xgArr (X : FVec Ideal S16x512x2048 .f32) (g1 : FVec Ideal S512x256 .f32) (gb1 : FVec Ideal S256 .f32)
    (g2 : FVec Ideal S256x512 .f32) (gb2 : FVec Ideal S512 .f32) : FVec Ideal S16x512x1 .f32 :=
  broadcastInDim S16x512x1 ![0, 1] Facts₀.bcast_S16x512_S16x512x1_0_1
    (addf (Host.dotGeneral (F := Ideal) dot_S16x256_S256x512_S16x512_1_0_0_1_n_n none (hgArr X g1 gb1) g2)
      (broadcastInDim S16x512 ![0, 1] Facts₀.bcast_S1x512_S16x512_0_1
        (broadcastInDim S1x512 ![1] Facts₀.bcast_S512_S1x512_1 gb2)))

/-- The input's positions are reduced along the last axis. -/
theorem reduces_positions : S16x512x2048.Reduces [2] S16x512 := by decide

/-- The host's mean at (n, c): the zero word plus the sum of X(n, c, ·), divided by the word 2048. -/
theorem meanArr_apply (X : FVec Ideal S16x512x2048 .f32) (n : Fin 16) (c : Fin 512) :
    meanArr X (ix2 n c) = Cert.Spec.meanR X n c := by
  unfold meanArr Cert.Spec.meanR
  rw [hostDivf_apply, hostReduceAdd_apply, broadcastInDim_scalar_apply,
    Ideal.hostReduceAdd_single _ reduces_positions]
  refine congrArg₂ Ideal.div (congrArg₂ (· + ·) rfl
    (Finset.sum_congr rfl fun k _ => congrArg X (funext fun a => Fin.ext ?_))) rfl
  match a with
  | ⟨0, _⟩ => rfl
  | ⟨1, _⟩ => rfl
  | ⟨2, _⟩ => rfl

/-- A bias vector repeated along the batch axis reads, at (n, j), the vector at j: the vector becomes a row [1, b]
    and the row is repeated over the 16 batch entries. -/
theorem biasRow_apply {b : ℕ} (v : (⟨1, ![b]⟩ : Shape).Idx → EReal)
    (h₁ : (⟨1, ![b]⟩ : Shape).BroadcastsInDim ⟨2, ![1, b]⟩ ![1])
    (h₂ : (⟨2, ![1, b]⟩ : Shape).BroadcastsInDim ⟨2, ![16, b]⟩ ![0, 1]) (n : Fin 16) (j : Fin b) :
    broadcastInDim ⟨2, ![16, b]⟩ ![0, 1] h₂ (broadcastInDim ⟨2, ![1, b]⟩ ![1] h₁ v) (ix2 n j) = v (ix1 j) := by
  refine (broadcastInDim_apply _ h₂ _ (ix2 n j) (ix2 (0 : Fin 1) j) fun a => ?_).trans
    (broadcastInDim_apply _ h₁ v (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

/-- The host's hidden layer at (n, j): the sum over the channels of mean(n, c) · g1(c, j), plus gb1(j), cut below at
    the zero word. -/
theorem hgArr_apply (X : FVec Ideal S16x512x2048 .f32) (g1 : FVec Ideal S512x256 .f32) (gb1 : FVec Ideal S256 .f32)
    (n : Fin 16) (j : Fin 256) : hgArr X g1 gb1 (ix2 n j) = Cert.Spec.hgR X g1 gb1 n j := by
  unfold hgArr Cert.Spec.hgR
  rw [maximumf_apply, addf_apply, broadcastInDim_scalar_apply]
  refine congrArg₂ max (congrArg₂ (· + ·) ?_ (biasRow_apply gb1 _ _ n j)) rfl
  exact (Cert.LibPlainDot.dotGeneral_apply none .single _ _ n j).trans
    (Finset.sum_congr rfl fun c _ => congrArg (· * g1 (ix2 c j)) (meanArr_apply X n c))

/-- The array the host hands to the region reads, at (n, c, 0), the global branch of the second arrangement. -/
theorem xgArr_apply (X : FVec Ideal S16x512x2048 .f32) (g1 : FVec Ideal S512x256 .f32) (gb1 : FVec Ideal S256 .f32)
    (g2 : FVec Ideal S256x512 .f32) (gb2 : FVec Ideal S512 .f32) (n : Fin 16) (c : Fin 512) (u : Fin 1) :
    xgArr X g1 gb1 g2 gb2 (ix3 n c u) = Cert.Spec.xgR X g1 gb1 g2 gb2 n c := by
  unfold xgArr Cert.Spec.xgR
  refine (broadcastInDim_apply _ _ _ (ix3 n c u) (ix2 n c) fun a => ?_).trans ?_
  · match a with
    | ⟨0, _⟩ => rfl
    | ⟨1, _⟩ => rfl
  rw [addf_apply]
  refine congrArg₂ (· + ·) ?_ (biasRow_apply gb2 _ _ n c)
  exact (Cert.LibPlainDot.dotGeneral_apply none .single _ _ n c).trans
    (Finset.sum_congr rfl fun j _ => congrArg (· * g2 (ix2 j c)) (hgArr_apply X g1 gb1 n j))

/-! ## The arrays as the region finds them -/

variable (m : (ℓ : Loc nD τ sig) → Buf (Elt Ideal) ℓ)

/-- The input as the region reads it: the argument with its two position axes merged. -/
abbrev inX (c : Dev nD) : FVec Ideal S16x512x2048 .f32 :=
  shapeCast S16x512x2048 (m ((c.tc : Thread nD τ).loc main_arg0)) Facts₀.shapeCasts_S16x512x32x64_S16x512x2048

/-- Window 1's array is the merged input. -/
theorem V_v0 (c : Dev nD) : (V m c main_v0 : S16x512x2048.Idx → EReal) = inX m c := by
  dsimp only [Gen.V, Gen.V0]
  simp only [Gen.hostOps0, List.flatten_cons, List.flatten_nil, List.append_nil]
  after_results_simp
  rfl

/-- Window 2's array is the first local weight transposed. -/
theorem V_v1 (c : Dev nD) : (V m c main_v1 : S256x512.Idx → EReal)
    = transpose S256x512 [1, 0] (m ((c.tc : Thread nD τ).loc main_arg1)) Facts₀.transposes_S512x256_S256x512_1_0 := by
  dsimp only [Gen.V, Gen.V0]
  simp only [Gen.hostOps0, List.flatten_cons, List.flatten_nil, List.append_nil]
  after_results_simp

/-- Window 3's array is the first local bias as a column. -/
theorem V_v2 (c : Dev nD) : (V m c main_v2 : S256x1.Idx → EReal)
    = shapeCast S256x1 (m ((c.tc : Thread nD τ).loc main_arg2)) Facts₀.shapeCasts_S256_S256x1 := by
  dsimp only [Gen.V, Gen.V0]
  simp only [Gen.hostOps0, List.flatten_cons, List.flatten_nil, List.append_nil]
  after_results_simp
  rfl

/-- Window 4's array is the second local weight transposed. -/
theorem V_v3 (c : Dev nD) : (V m c main_v3 : S512x256.Idx → EReal)
    = transpose S512x256 [1, 0] (m ((c.tc : Thread nD τ).loc main_arg3)) Facts₀.transposes_S256x512_S512x256_1_0 := by
  dsimp only [Gen.V, Gen.V0]
  simp only [Gen.hostOps0, List.flatten_cons, List.flatten_nil, List.append_nil]
  after_results_simp

/-- Window 5's array is the second local bias as a column. -/
theorem V_v4 (c : Dev nD) : (V m c main_v4 : S512x1.Idx → EReal)
    = shapeCast S512x1 (m ((c.tc : Thread nD τ).loc main_arg4)) Facts₀.shapeCasts_S512_S512x1 := by
  dsimp only [Gen.V, Gen.V0]
  simp only [Gen.hostOps0, List.flatten_cons, List.flatten_nil, List.append_nil]
  after_results_simp
  rfl

/-- Window 0's array is the host's global branch of the merged input and the four global parameters. -/
theorem V_v22 (c : Dev nD) : (V m c main_v22 : S16x512x1.Idx → EReal)
    = xgArr (inX m c) (m ((c.tc : Thread nD τ).loc main_arg5)) (m ((c.tc : Thread nD τ).loc main_arg6))
        (m ((c.tc : Thread nD τ).loc main_arg7)) (m ((c.tc : Thread nD τ).loc main_arg8)) := by
  dsimp only [Gen.V, Gen.V0]
  simp only [Gen.hostOps0, List.flatten_cons, List.flatten_nil, List.append_nil]
  after_results_simp
  rfl

/-! ## The same arrays read at an index -/

/-- The transposed first local weight at (j, c') is the weight at (c', j). -/
theorem V_v1_apply (c : Dev nD) (j : Fin 256) (c' : Fin 512) :
    (V m c main_v1 : S256x512.Idx → EReal) (ix2 j c') = m ((c.tc : Thread nD τ).loc main_arg1) (ix2 c' j) := by
  rw [V_v1]; exact transpose_ix2_apply _ _ j c'

/-- The first local bias column at (j, 0) is the bias at j. -/
theorem V_v2_apply (c : Dev nD) (j : Fin 256) :
    (V m c main_v2 : S256x1.Idx → EReal) (ix2 j (0 : Fin 1)) = m ((c.tc : Thread nD τ).loc main_arg2) (ix1 j) := by
  rw [V_v2]; exact Cert.LibColumn.shapeCast_a_a1_apply _ _ j 0

/-- The transposed second local weight at (c', j) is the weight at (j, c'). -/
theorem V_v3_apply (c : Dev nD) (c' : Fin 512) (j : Fin 256) :
    (V m c main_v3 : S512x256.Idx → EReal) (ix2 c' j) = m ((c.tc : Thread nD τ).loc main_arg3) (ix2 j c') := by
  rw [V_v3]; exact transpose_ix2_apply _ _ c' j

/-- The second local bias column at (c', 0) is the bias at c'. -/
theorem V_v4_apply (c : Dev nD) (c' : Fin 512) :
    (V m c main_v4 : S512x1.Idx → EReal) (ix2 c' (0 : Fin 1)) = m ((c.tc : Thread nD τ).loc main_arg4) (ix1 c') := by
  rw [V_v4]; exact Cert.LibColumn.shapeCast_a_a1_apply _ _ c' 0

/-- The array of window 0 at (n, c', 0) is the global branch of the second arrangement at batch n and channel c'. -/
theorem V_v22_apply (c : Dev nD) (n : Fin 16) (c' : Fin 512) (u : Fin 1) :
    (V m c main_v22 : S16x512x1.Idx → EReal) (ix3 n c' u)
      = Cert.Spec.xgR (inX m c) (m ((c.tc : Thread nD τ).loc main_arg5)) (m ((c.tc : Thread nD τ).loc main_arg6))
          (m ((c.tc : Thread nD τ).loc main_arg7)) (m ((c.tc : Thread nD τ).loc main_arg8)) n c' := by
  rw [V_v22]; exact xgArr_apply _ _ _ _ _ n c' u

end Cert.ReferenceIdeal.RefValue

end
-- ==== Proof.RefVPay.lean ====
/-
  What the reference's kernel body stores, read at one entry.

  At a grid point the body holds a block x [1, 512, 1024] of the input (one batch entry, every channel, 1024
  positions), the transposed first-layer weight a [256, 512] (entry (j, c') is w1(c', j)), the first bias as a
  column p [256, 1], the transposed second-layer weight d [512, 256] (entry (c, j) is w2(j, c)), the second bias as
  a column q [512, 1] and the global branch of this batch entry as a column g [1, 512, 1]. It stores, at channel c
  and position s of the block,

      x(c, s) · σ( ( ∑_j d(c, j) · max( ∑_c' a(j, c') · x(c', s) + p(j), 0 ) + q(c) ) + g(c) ).

  The two sums are matrix products into a zero accumulator, which on the extended reals are the plain sums of
  products; a column repeated along the positions reads the column's entry of the row; the leading unit axis of a
  block is dropped and put back by casts that keep the row-major order.
-/
import proofs.«129053_g2000003555652995_pallasbulk_24_34_alg».proof.Proof.Gen.ReferenceIdeal.Skeleton
import proofs.«129053_g2000003555652995_pallasbulk_24_34_alg».proof.Proof.Spec
import proofs.«129053_g2000003555652995_pallasbulk_24_34_alg».proof.Proof.LibPlainDot
import proofs.«129053_g2000003555652995_pallasbulk_24_34_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen

/-- The hidden layer of the block at inner channel j and position s: the product a · x at (j, s) is the sum over the
    channels c' of a(j, c') · x(c', s); the bias column repeated along the positions adds p(j); the maximum with the
    zero word follows. -/
theorem hidBlock_apply (x : FVec Ideal S1x512x1024 .f32) (a : FVec Ideal S256x512 .f32) (p : FVec Ideal S256x1 .f32)
    (j : Fin 256) (s : Fin 1024) :
    maximumf (addf (matmul dot_S256x512_S512x1024_S256x1024_1_0_0_1_n_n none
          (shapeCast S256x512 a Facts₀.shapeCasts_S256x512_S256x512)
          (shapeCast S512x1024 x Facts₀.shapeCasts_S1x512x1024_S512x1024)
          (constant (F := Ideal) S256x1024 .f32 0x00000000#32))
        (broadcastTo S256x1024 (shapeCast S256x1 p Facts₀.shapeCasts_S256x1_S256x1) Facts₀.broadcasts_S256x1_S256x1024))
      (broadcast S256x1024 (Scalar.ofBits (F := Ideal) .f32 0x00000000#32)) (ix2 j s)
    = max ((∑ c' : Fin 512, a (ix2 j c') * x (ix3 (0 : Fin 1) c' s)) + p (ix2 j (0 : Fin 1))) Cert.Spec.zeroW := by
  rw [maximumf_apply, addf_apply, broadcast_apply]
  refine congrArg₂ max (congrArg₂ (· + ·) ?_ ?_) rfl
  · exact (Cert.LibPlainDot.matmul_zero_apply none _ _ j s).trans
      (Finset.sum_congr rfl fun c' _ => congrArg₂ (· * ·) (congrFun (shapeCast_self a _) _)
        (shapeCast_1ab_ab_apply x _ c' s))
  · exact (Cert.LibColumn.broadcastTo_a1_ab_apply _ _ j s).trans (congrFun (shapeCast_self p _) _)

/-- What the body stores at channel c and position s of its block. -/
theorem pay_apply (g : FVec Ideal S1x512x1 .f32) (x : FVec Ideal S1x512x1024 .f32) (a : FVec Ideal S256x512 .f32)
    (p : FVec Ideal S256x1 .f32) (d : FVec Ideal S512x256 .f32) (q : FVec Ideal S512x1 .f32) (c : Fin 512) (s : Fin 1024) :
    k0_pay1 (F := Ideal) x a p d q g x (ix3 (0 : Fin 1) c s)
      = x (ix3 (0 : Fin 1) c s) * Ideal.logistic
          (((∑ j : Fin 256, d (ix2 c j)
                * max ((∑ c' : Fin 512, a (ix2 j c') * x (ix3 (0 : Fin 1) c' s)) + p (ix2 j (0 : Fin 1))) Cert.Spec.zeroW)
              + q (ix2 c (0 : Fin 1)))
            + g (ix3 (0 : Fin 1) c (0 : Fin 1))) := by
  unfold k0_pay1
  refine (shapeCast_ab_1ab_apply _ _ (0 : Fin 1) c s).trans ?_
  rw [mulf_apply]
  refine congrArg₂ (· * ·) (shapeCast_1ab_ab_apply x _ c s) ?_
  show Ideal.logistic _ = _
  refine congrArg Ideal.logistic ?_
  rw [addf_apply, addf_apply]
  refine congrArg₂ (· + ·) (congrArg₂ (· + ·) ?_ ?_) ?_
  · exact (Cert.LibPlainDot.matmul_zero_apply none _ _ c s).trans
      (Finset.sum_congr rfl fun j _ => congrArg₂ (· * ·) (congrFun (shapeCast_self d _) _)
        (hidBlock_apply x a p j s))
  · exact (Cert.LibColumn.broadcastTo_a1_ab_apply _ _ c s).trans (congrFun (shapeCast_self q _) _)
  · exact (Cert.LibColumn.broadcastTo_a1_ab_apply _ _ c s).trans (shapeCast_1ab_ab_apply g _ c (0 : Fin 1))

end Cert.ReferenceIdeal.RefValue

end
-- ==== Proof.RefVGate.lean ====
/-
  The body's stored entry, over blocks that are pieces of the argument arrays, is the second arrangement's entry.

  Suppose the block x [1, 512, 1024] is batch entry n and the positions 1024·h … 1024·h + 1023 of the input X, the
  operand a is the first local weight transposed, p the first local bias as a column, d the second local weight
  transposed, q the second local bias as a column, and the column g holds the global branch of batch entry n. Then
  what the body stores at channel c and position s of the block is the second arrangement at (n, c, 1024·h + s):
  the two nested sums are the local branch, term by term, and the remaining operations are the same on both sides.
-/
import proofs.«129053_g2000003555652995_pallasbulk_24_34_alg».proof.Proof.RefVPay
import proofs.«129053_g2000003555652995_pallasbulk_24_34_alg».proof.Proof.Spec

noncomputable section

open scoped BigOperators

namespace Cert.ReferenceIdeal.RefValue

open Idealize.ShloMosaic Idealize.ShloMosaic.ValueIdx
open Cert.ReferenceIdeal Cert.ReferenceIdeal.Gen

/-- Position s of half h of the 2048 positions. -/
abbrev posOf (h : Fin 2) (s : Fin 1024) : Fin 2048 := ⟨h.val * 1024 + s.val, by have := h.isLt; have := s.isLt; omega⟩

/-- The stored entry over blocks cut from the argument arrays. -/
theorem pay_eq_gate (X : FVec Ideal S16x512x2048 .f32) (w1 : FVec Ideal S512x256 .f32) (b1 : FVec Ideal S256 .f32)
    (w2 : FVec Ideal S256x512 .f32) (b2 : FVec Ideal S512 .f32) (g1 : FVec Ideal S512x256 .f32)
    (gb1 : FVec Ideal S256 .f32) (g2 : FVec Ideal S256x512 .f32) (gb2 : FVec Ideal S512 .f32)
    (g : FVec Ideal S1x512x1 .f32) (x : FVec Ideal S1x512x1024 .f32) (a : FVec Ideal S256x512 .f32)
    (p : FVec Ideal S256x1 .f32) (d : FVec Ideal S512x256 .f32) (q : FVec Ideal S512x1 .f32)
    (n : Fin 16) (h : Fin 2)
    (hx : ∀ (c : Fin 512) (s : Fin 1024), x (ix3 (0 : Fin 1) c s) = X (ix3 n c (posOf h s)))
    (ha : ∀ (j : Fin 256) (c : Fin 512), a (ix2 j c) = w1 (ix2 c j))
    (hp : ∀ j : Fin 256, p (ix2 j (0 : Fin 1)) = b1 (ix1 j))
    (hd : ∀ (c : Fin 512) (j : Fin 256), d (ix2 c j) = w2 (ix2 j c))
    (hq : ∀ c : Fin 512, q (ix2 c (0 : Fin 1)) = b2 (ix1 c))
    (hg : ∀ c : Fin 512, g (ix3 (0 : Fin 1) c (0 : Fin 1)) = Cert.Spec.xgR X g1 gb1 g2 gb2 n c)
    (c : Fin 512) (s : Fin 1024) :
    k0_pay1 (F := Ideal) x a p d q g x (ix3 (0 : Fin 1) c s)
      = Cert.Spec.gateRat X w1 b1 w2 b2 g1 gb1 g2 gb2 n c (posOf h s) := by
  rw [pay_apply]
  simp only [hx, ha, hp, hd, hq, hg]
  rfl

end Cert.ReferenceIdeal.RefValue

end
-- ==== Proof.RefVBlocks.lean ====
/-
  From the blocks to the array: after the region the output array holds the second arrangement of the argument arrays.

  At grid point t = 2·n + h the body is handed batch entry n and the positions 1024·h … 1024·h + 1023 of the merged
  input, the two transposed local weights, the two local bias columns and batch entry n of the global branch. What it
  stores at channel c and position s of its block is therefore the second arrangement at (n, c, 1024·h + s), which is
  the entry of the output array the block's element (0, c, s) is written back to. Every point writes its block back
  and the 32 blocks cover the output array, so the array ends holding the second arrangement everywhere.
-/
import proofs.«129053_g2000003555652995_pallasbulk_24_34_alg».proof.Proof.RefVBlk
import proofs.«129053_g2000003555652995_pallasbulk_24_34_alg».proof.Proof.RefVHost
import proofs.«129053_g2000003555652995_pallasbulk_24_34_alg».proof.Proof.RefVGate

set_option maxRecDepth 16384

noncomputable section

open scoped BigOperators

namespace Cert.ReferenceIdeal.RefValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (m : (ℓ : Loc nD τ sig) → Buf (Elt Ideal) ℓ)

/-- The second arrangement of the gated channel attention, of the argument arrays on core c. -/
def refG (c : Dev nD) : S16x512x2048.Idx → EReal :=
  Cert.Spec.gateR (inX m c) (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))

theorem zero3 : (![0, 0, 0] : Fin 3 → Nat) = fun _ => 0 := funext fun a => by fin_cases a <;> rfl
theorem zero2 : (![0, 0] : Fin 2 → Nat) = fun _ => 0 := funext fun a => by fin_cases a <;> rfl

/-- The stored entry at any index y of the block: its first coordinate is 0, so it is the entry at (0, y₁, y₂). -/
theorem pay_eq_gate_at (X : FVec Ideal S16x512x2048 .f32) (w1 : FVec Ideal S512x256 .f32) (b1 : FVec Ideal S256 .f32)
    (w2 : FVec Ideal S256x512 .f32) (b2 : FVec Ideal S512 .f32) (g1 : FVec Ideal S512x256 .f32)
    (gb1 : FVec Ideal S256 .f32) (g2 : FVec Ideal S256x512 .f32) (gb2 : FVec Ideal S512 .f32)
    (g : FVec Ideal S1x512x1 .f32) (x : FVec Ideal S1x512x1024 .f32) (a : FVec Ideal S256x512 .f32)
    (p : FVec Ideal S256x1 .f32) (d : FVec Ideal S512x256 .f32) (q : FVec Ideal S512x1 .f32)
    (n : Fin 16) (h : Fin 2)
    (hx : ∀ (c : Fin 512) (s : Fin 1024), x (ix3 (0 : Fin 1) c s) = X (ix3 n c (posOf h s)))
    (ha : ∀ (j : Fin 256) (c : Fin 512), a (ix2 j c) = w1 (ix2 c j))
    (hp : ∀ j : Fin 256, p (ix2 j (0 : Fin 1)) = b1 (ix1 j))
    (hd : ∀ (c : Fin 512) (j : Fin 256), d (ix2 c j) = w2 (ix2 j c))
    (hq : ∀ c : Fin 512, q (ix2 c (0 : Fin 1)) = b2 (ix1 c))
    (hg : ∀ c : Fin 512, g (ix3 (0 : Fin 1) c (0 : Fin 1)) = Cert.Spec.xgR X g1 gb1 g2 gb2 n c)
    (y : S1x512x1024.Idx) :
    k0_pay1 (F := Ideal) x a p d q g x y
      = Cert.Spec.gateRat X w1 b1 w2 b2 g1 gb1 g2 gb2 n (y 1) (posOf h (y 2)) := by
  obtain ⟨u, c, s, rfl⟩ : ∃ (u : Fin 1) (c : Fin 512) (s : Fin 1024), y = ix3 u c s := ⟨y 0, y 1, y 2, eq_ix3 y⟩
  obtain rfl : u = 0 := Subsingleton.elim _ _
  exact pay_eq_gate X w1 b1 w2 b2 g1 gb1 g2 gb2 g x a p d q n h hx ha hp hd hq hg c s

/-- What grid point t writes back is block t of the second arrangement of the argument arrays. -/
theorem flushed_eq (c : Dev nD) (t : Fin cfg0.N) :
    (dats m 0 c).flushed 6 t = ((cfg0.win 6).blk t).view.read (Elt Ideal) (refG m c) := by
  show (cfg0.win 6).cut (grid0.coords t) ((dats m 0 c).after 6 t) = _
  rw [after0_6]
  unfold out0_6
  rw [View.canon_unit_zero zero3]
  simp only [View.ld_unit_zero (S := S1x512x1024) zero3, View.ld_unit_zero (S := S1x512x1) zero3,
    View.ld_unit_zero (S := S256x512) zero2, View.ld_unit_zero (S := S256x1) zero2,
    View.ld_unit_zero (S := S512x256) zero2, View.ld_unit_zero (S := S512x1) zero2]
  funext j
  have ht : t.val < 32 := by have h1 := t.isLt; have h32 : cfg0.N = 32 := N_0; omega
  have hj0 : (j 0).val < 1 := (j 0).isLt
  have hj2 : (j 2).val < 1024 := (j 2).isLt
  rw [View.read_apply, emb6 t j]
  let n : Fin 16 := ⟨t.val / 2, by omega⟩
  let h : Fin 2 := ⟨t.val % 2, by omega⟩
  have hx : ∀ (c' : Fin 512) (s : Fin 1024),
      (iblk m c 1 t : Vec Ideal S1x512x1024 .f32) (ix3 (0 : Fin 1) c' s) = inX m c (ix3 n c' (posOf h s)) := fun c' s =>
    (iblk1_apply m c t (ix3 (0 : Fin 1) c' s) (ix3 n c' (posOf h s)) rfl rfl
      (by show t.val % 2 * 1024 + s.val = 1024 * (t.val % 2) + s.val; omega)).trans (congrFun (V_v0 m c) _)
  have ha : ∀ (j' : Fin 256) (c' : Fin 512), (iblk m c 2 t : Vec Ideal S256x512 .f32) (ix2 j' c')
      = m ((c.tc : Thread nD τ).loc main_arg1) (ix2 c' j') := fun j' c' =>
    (iblk2_apply m c t (ix2 j' c')).trans (V_v1_apply m c j' c')
  have hp : ∀ j' : Fin 256, (iblk m c 3 t : Vec Ideal S256x1 .f32) (ix2 j' (0 : Fin 1))
      = m ((c.tc : Thread nD τ).loc main_arg2) (ix1 j') := fun j' =>
    (iblk3_apply m c t (ix2 j' (0 : Fin 1))).trans (V_v2_apply m c j')
  have hd : ∀ (c' : Fin 512) (j' : Fin 256), (iblk m c 4 t : Vec Ideal S512x256 .f32) (ix2 c' j')
      = m ((c.tc : Thread nD τ).loc main_arg3) (ix2 j' c') := fun c' j' =>
    (iblk4_apply m c t (ix2 c' j')).trans (V_v3_apply m c c' j')
  have hq : ∀ c' : Fin 512, (iblk m c 5 t : Vec Ideal S512x1 .f32) (ix2 c' (0 : Fin 1))
      = m ((c.tc : Thread nD τ).loc main_arg4) (ix1 c') := fun c' =>
    (iblk5_apply m c t (ix2 c' (0 : Fin 1))).trans (V_v4_apply m c c')
  have hg : ∀ c' : Fin 512, (iblk m c 0 t : Vec Ideal S1x512x1 .f32) (ix3 (0 : Fin 1) c' (0 : Fin 1))
      = Cert.Spec.xgR (inX m c) (m ((c.tc : Thread nD τ).loc main_arg5)) (m ((c.tc : Thread nD τ).loc main_arg6))
          (m ((c.tc : Thread nD τ).loc main_arg7)) (m ((c.tc : Thread nD τ).loc main_arg8)) n c' := fun c' =>
    (iblk0_apply m c t (ix3 (0 : Fin 1) c' (0 : Fin 1)) (ix3 n c' (0 : Fin 1)) rfl rfl rfl).trans
      (V_v22_apply m c n c' 0)
  refine (pay_eq_gate_at (inX m c) (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (iblk m c 0 t) (iblk m c 1 t) (iblk m c 2 t) (iblk m c 3 t) (iblk m c 4 t) (iblk m c 5 t) n h hx ha hp hd hq hg
    ((cfg0.win 6).xinj (grid0.coords t) j)).trans ?_
  have e0 : n = (⟨t.val / 2 + (j 0).val, blkBatch_lt t j⟩ : Fin 16) := Fin.ext (by show t.val / 2 = t.val / 2 + (j 0).val; omega)
  have e2 : posOf h ((cfg0.win 6).xinj (grid0.coords t) j 2) = (⟨1024 * (t.val % 2) + (j 2).val, blkPos_lt t j⟩ : Fin 2048) :=
    Fin.ext (by show t.val % 2 * 1024 + (j 2).val = 1024 * (t.val % 2) + (j 2).val; omega)
  rw [e0, e2]
  rfl

/-- So the output array ends holding the second arrangement of the argument arrays. -/
theorem final (c : Dev nD) : (dats m 0 c).arrAt 6 cfg0.N = refG m c :=
  (dats m 0 c).arrAt_eq_of_cover 6 (refG m c) (fun t _ => flushed_eq m c t) covered

end Cert.ReferenceIdeal.RefValue

end
-- ==== Proof.RefVTail.lean ====
/-
  From the output array of the region to the result of the second program, for any closed form of that array.

  After its region the second program reshapes the region's output array [16, 512, 2048] to the input's four axes
  [16, 512, 32, 64]; nothing else follows. So whatever function G of the index the output array is shown to hold
  when the region ends, the result buffer ends at G reshaped, and the nine argument arrays, which no operation
  writes, end as they were launched. Both facts are stated with G as a parameter and "the output array ends at G"
  as a hypothesis, so that the function is chosen where the blocks are read.
-/
import proofs.«129053_g2000003555652995_pallasbulk_24_34_alg».proof.Proof.Gen.ReferenceIdeal.Frame
import Idealize.ShloMosaic.Lib.StableHlo.Run
import Idealize.ShloMosaic.PureOps.Ideal

set_option maxRecDepth 16384

noncomputable section

namespace Cert.ReferenceIdeal.RefValue

open Idealize.ShloMosaic Idealize.ShloMosaic.TcCoe
open Idealize.SL Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg)

/-- The reshape after the region reads the output array: if that array ends at G, the result buffer ends at G
    reshaped to the input's four axes. -/
theorem tail_v24 (G : Dev nD → S16x512x2048.Idx → EReal) (hfin : ∀ c, (Gen.dats m 0 c).arrAt 6 cfg0.N = G c)
    (c : Dev nD) :
    Pipeline.afterTail₀ cfgs (Gen.dats m) 0 (Gen.V0 m) [Gen.hostOps1] c main_v24
      = shapeCast S16x512x32x64 (G c) Facts₀.shapeCasts_S16x512x2048_S16x512x32x64 := by
  unfold Pipeline.afterTail₀
  show StableHlo.after hostOps1 _ (Proc.devRef .tc main_v24) = _
  after_results
  exact congrArg (fun a => shapeCast S16x512x32x64 a Facts₀.shapeCasts_S16x512x2048_S16x512x32x64)
    ((Pipeline.withArrays_arr spec0 launch0.win.arr_inj c _ _ 6).trans (hfin c))

/-- Every weakly fair execution of @main terminates; if the region's output array ends at G, the result is G
    reshaped, and the argument arrays are unchanged. -/
theorem run_of (G : Dev nD → S16x512x2048.Idx → EReal) (hfin : ∀ c, (Gen.dats m 0 c).arrAt 6 cfg0.N = G c) :
    θ_run (defs (F := Ideal)) (onTc (τ := τ) (main (F := Ideal))) ⟨m, fun _ => 0, ρ⟩ (fun r => ∀ c : Dev nD,
      r.2.mem ((c.tc : Thread nD τ).loc main_v24)
          = shapeCast S16x512x32x64 (G c) Facts₀.shapeCasts_S16x512x2048_S16x512x32x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v24 (Pipeline.mem_restRefs_of main_v24 (by decide) (by decide))).trans (tail_v24 m G hfin c),
      ((h c).2 main_arg0 (Pipeline.mem_restRefs_of main_arg0 (by decide) (by decide))).trans (W_main_arg0 m (Gen.dats m) c),
      ((h c).2 main_arg1 (Pipeline.mem_restRefs_of main_arg1 (by decide) (by decide))).trans (W_main_arg1 m (Gen.dats m) c),
      ((h c).2 main_arg2 (Pipeline.mem_restRefs_of main_arg2 (by decide) (by decide))).trans (W_main_arg2 m (Gen.dats m) c),
      ((h c).2 main_arg3 (Pipeline.mem_restRefs_of main_arg3 (by decide) (by decide))).trans (W_main_arg3 m (Gen.dats m) c),
      ((h c).2 main_arg4 (Pipeline.mem_restRefs_of main_arg4 (by decide) (by decide))).trans (W_main_arg4 m (Gen.dats m) c),
      ((h c).2 main_arg5 (Pipeline.mem_restRefs_of main_arg5 (by decide) (by decide))).trans (W_main_arg5 m (Gen.dats m) c),
      ((h c).2 main_arg6 (Pipeline.mem_restRefs_of main_arg6 (by decide) (by decide))).trans (W_main_arg6 m (Gen.dats m) c),
      ((h c).2 main_arg7 (Pipeline.mem_restRefs_of main_arg7 (by decide) (by decide))).trans (W_main_arg7 m (Gen.dats m) c),
      ((h c).2 main_arg8 (Pipeline.mem_restRefs_of main_arg8 (by decide) (by decide))).trans (W_main_arg8 m (Gen.dats m) c)⟩)
    (run_main m ρ)

end Cert.ReferenceIdeal.RefValue

end
-- ==== Proof.RefVRun.lean ====
/-
  The second program's run, read: its result is the second arrangement of the argument arrays.

  The region leaves the second arrangement of the merged input and the eight parameter arrays in its output array
  [16, 512, 2048]; the one host operation after it reshapes that array back to the input's four axes
  [16, 512, 32, 64]. So every weakly fair execution ends with the result buffer at the second arrangement reshaped,
  and with the nine argument arrays as they were launched.
-/
import proofs.«129053_g2000003555652995_pallasbulk_24_34_alg».proof.Proof.RefVBlocks
import proofs.«129053_g2000003555652995_pallasbulk_24_34_alg».proof.Proof.RefVTail

noncomputable section

namespace Cert.ReferenceIdeal.RefValue

open Idealize.ShloMosaic Idealize.SL.Sem
open Cert.ReferenceIdeal Cert.ReferenceIdeal.Gen

/-- The result of the second program on core c: the second arrangement of the input read as batch × channel ×
    position and of the eight parameter arrays, given back the input's four axes. -/
def refOut (m : (ℓ : Loc nD τ sig) → Buf (Elt Ideal) ℓ) (c : Dev nD) : S16x512x32x64.Idx → EReal :=
  shapeCast S16x512x32x64
    (Cert.Spec.gateR
      (shapeCast S16x512x2048 (m ((c.tc : Thread nD τ).loc main_arg0)) Facts₀.shapeCasts_S16x512x32x64_S16x512x2048)
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8)))
    Facts₀.shapeCasts_S16x512x2048_S16x512x32x64

/-- The result is the region's closed form reshaped. -/
theorem refOut_eq (m : (ℓ : Loc nD τ sig) → Buf (Elt Ideal) ℓ) (c : Dev nD) :
    refOut m c = shapeCast S16x512x32x64 (refG m c) Facts₀.shapeCasts_S16x512x2048_S16x512x32x64 := rfl

/-- Every weakly fair execution of the second program terminates with the result buffer at `refOut` and the nine
    argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_of m ρ (refG m) (final m)

end Cert.ReferenceIdeal.RefValue

end
-- ==== Proof.lean ====
/-
  A channel-attention gate x · σ(local(x) + global(x)) computed by one fused kernel over packed parameters, against
  the reference that computes the global branch on the host and the local branch and the gate in a tiled kernel.

  Both programs reshape the input to [16, 512, 2048] (batch, channel, position) and reshape their result back.
  Read on the extended reals both compute, at every (n, c, s), the input entry times a gate applied to the sum of
  a local two-layer map of the channel column at (n, ·, s) and a global two-layer map of the channel means of batch
  entry n. They differ in how the mean is taken (times 2^-11 against divided by 2048), in the order of the factors
  in the global branch, in where the output biases are added, and in the gate (1/2 + 1/2 · tanh(z/2) against the
  logistic function of z); Proof/Bridge.lean shows these are one function, with no use of the inputs' finiteness.

  The kernel's two frames (at the machine words and at the extended reals) are Proof/KFrameBits.lean and
  Proof/KFrameIdeal.lean; its value is Proof/KRunIdeal.lean; the reference's frame is generated and its value is
  Proof/RefVRun.lean.
-/
import proofs.«129053_g2000003555652995_pallasbulk_24_34_alg».proof.Defs
import proofs.«129053_g2000003555652995_pallasbulk_24_34_alg».proof.Proof.Gen.Kernel
import proofs.«129053_g2000003555652995_pallasbulk_24_34_alg».proof.Proof.Gen.KernelIdeal
import proofs.«129053_g2000003555652995_pallasbulk_24_34_alg».proof.Proof.Gen.ReferenceIdeal
import proofs.«129053_g2000003555652995_pallasbulk_24_34_alg».proof.Proof.Gen.ReferenceIdeal.Frame
import proofs.«129053_g2000003555652995_pallasbulk_24_34_alg».proof.Proof.Gen.Pre_finite_inputs
import proofs.«129053_g2000003555652995_pallasbulk_24_34_alg».proof.Proof.KFrameBits
import proofs.«129053_g2000003555652995_pallasbulk_24_34_alg».proof.Proof.KRunIdeal
import proofs.«129053_g2000003555652995_pallasbulk_24_34_alg».proof.Proof.Bridge
import proofs.«129053_g2000003555652995_pallasbulk_24_34_alg».proof.Proof.RefVRun
import Idealize.ShloMosaic.Adequacy
import Idealize.ShloMosaic.Init

noncomputable section

namespace Cert.Proof

open Idealize.ShloMosaic Idealize.SL.Sem

/-- The word-level kernel terminates without a fault and leaves its argument arrays unchanged. -/
theorem frame_k : Cert.frame_Kernel := fun m ρ _ => Cert.Kernel.Hand.frame m ρ

/-- So does the idealized kernel, -/
theorem frame_ki : Cert.frame_KernelIdeal := fun m ρ _ => Cert.KernelIdeal.Hand.frame m ρ

/-- and the idealized reference. -/
theorem frame_ri : Cert.frame_ReferenceIdeal := fun m ρ _ => Cert.ReferenceIdeal.Gen.frame m ρ

/-- The idealization rewrote no operation: there is nothing to preserve. -/
theorem preserves : Cert.preserves_Kernel_KernelIdeal := trivial

/-- From memories that agree on the nine argument arrays the idealized kernel ends with the first arrangement of
    the gated channel attention and the idealized reference with the second; the two arrangements are one function
    on the extended reals, so the results are equal entry by entry. -/
theorem algebraic : Cert.algebraic_KernelIdeal_ReferenceIdeal := by
  intro m ρ m' ρ' _ hagree
  refine ⟨fun c => shapeCast Cert.KernelIdeal.S16x512x32x64 (Cert.KernelIdeal.Hand.kerG m c)
      Cert.KernelIdeal.Facts₀.shapeCasts_S16x512x2048_S16x512x32x64, Cert.KernelIdeal.Hand.run m ρ, ?_⟩
  refine (θ_run Cert.ReferenceIdeal.defs _ _).mono (fun _ h c => ⟨(h c).1.trans ?_, (h c).2⟩)
    (Cert.ReferenceIdeal.RefValue.run m' ρ')
  unfold Cert.ReferenceIdeal.RefValue.refOut Cert.KernelIdeal.Hand.kerG Cert.KernelIdeal.Hand.Xin
  obtain ⟨h0, h1, h2, h3, h4, h5, h6, h7, h8⟩ := hagree c
  rw [h0, h1, h2, h3, h4, h5, h6, h7, h8]
  beta_reduce
  rw [Cert.Spec.gateK_eq_gateR]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
